-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S800000 : Shape := ⟨1, ![800000]⟩
abbrev S16x128 : Shape := ⟨2, ![16, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S800000 : S_.BroadcastsInDim S800000 (![] : Fin 0 → Fin S800000.rank)
  reducesTo_S800000_S_d0 : S800000.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S128 .f32) (main_arg9 : FVec F S128x16 .f32) (main_arg10 : FVec F S16 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x16 .f32 := Host.absf main_arg9
  let main_cst_14 : FVec F S_ .f32 := constant S_ .f32 0x7F800000#32
  let main_v40 : FVec F S128x16 .f32 := broadcastInDim S128x16 ![] bcast_S_S128x16 main_cst_14
  let main_v41 : IVec S128x16 1 := cmpf .olt main_v39 main_v40
  let main_c_15 : IVec S_ 1 := constantI S_ 1 1#1
  let main_v42 : IVec S_ 1 := (fun x v => Host.reduce IntOp.andi x v reducesTo_S128x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128x16 .f32) (main_arg10 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x16 .f32) (main_arg1 : IVec S2x800000 32) (main_arg2 : FVec F S800000 .f32) (main_arg3 : FVec F S16x128 .f32) (main_arg4 : FVec F S128 .f32) (main_arg5 : FVec F S128x128 .f32) (main_arg6 : FVec F S128 .f32) (main_arg7 : FVec F S128x128 .f32) (main_arg8 : FVec F S128 .f32) (main_arg9 : FVec F S128x16 .f32) (main_arg10 : FVec F S16 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x16 : Shape := ⟨2, ![50000, 16]⟩
abbrev S2x800000 : Shape := ⟨2, ![2, 800000]⟩
abbrev S800000 : Shape := ⟨1, ![800000]⟩
abbrev S16x128 : Shape := ⟨2, ![16, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x16 : Shape := ⟨2, ![5000, 16]⟩
abbrev S5000x128 : Shape := ⟨2, ![5000, 128]⟩
abbrev S850000x128 : Shape := ⟨2, ![850000, 128]⟩
abbrev S1x128 : Shape := ⟨2, ![1, 128]⟩
abbrev S850000x16 : Shape := ⟨2, ![850000, 16]⟩
abbrev S1x16 : Shape := ⟨2, ![1, 16]⟩

abbrev nBuf : Space → Nat
  | .hbm => 137
  | .vmem => 40
  | .smem => 0
  | _ => 0

abbrev hbmTy0_0 (i : Nat) : BufTy := match i % 128 with
  | 0 => ⟨S50000x16, .f32⟩
  | 1 => ⟨S2x800000, .i32⟩
  | 2 => ⟨S800000, .f32⟩
  | 3 => ⟨S16x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x16, .f32⟩
  | 10 => ⟨S16, .f32⟩
  | 11 => ⟨S1x800000, .i32⟩
  | 12 => ⟨S800000, .i32⟩
  | 13 => ⟨S50000, .i32⟩
  | 14 => ⟨S850000, .i32⟩
  | 15 => ⟨S1x800000, .i32⟩
  | 16 => ⟨S800000, .i32⟩
  | 17 => ⟨S50000, .i32⟩
  | 18 => ⟨S850000, .i32⟩
  | 19 => ⟨S_, .f32⟩
  | 20 => ⟨S50000, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .i1⟩
  | 32 => ⟨S_, .f32⟩
  | 33 => ⟨S_, .f32⟩
  | 34 => ⟨S50000, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S850000, .f32⟩
  | 61 => ⟨S50000x128, .f32⟩
  | 62 => ⟨S850000x1, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000x128, .f32⟩
  | 72 => ⟨S850000x128, .f32⟩
  | 73 => ⟨S850000x128, .f32⟩
  | 74 => ⟨S_, .f32⟩
  | 75 => ⟨S50000x128, .f32⟩
  | 76 => ⟨S850000x1, .i32⟩
  | 77 => ⟨S50000x128, .f32⟩
  | 78 => ⟨S1x128, .f32⟩
  | 79 => ⟨S50000x128, .f32⟩
  | 80 => ⟨S50000x128, .f32⟩
  | 81 => ⟨S850000x1, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x128, .f32⟩
  | 91 => ⟨S850000x128, .f32⟩
  | 92 => ⟨S850000x128, .f32⟩
  | 93 => ⟨S_, .f32⟩
  | 94 => ⟨S50000x128, .f32⟩
  | 95 => ⟨S850000x1, .i32⟩
  | 96 => ⟨S50000x128, .f32⟩
  | 97 => ⟨S1x128, .f32⟩
  | 98 => ⟨S50000x128, .f32⟩
  | 99 => ⟨S50000x128, .f32⟩
  | 100 => ⟨S850000x1, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x128, .f32⟩
  | 110 => ⟨S850000x128, .f32⟩
  | 111 => ⟨S850000x128, .f32⟩
  | 112 => ⟨S_, .f32⟩
  | 113 => ⟨S50000x128, .f32⟩
  | 114 => ⟨S850000x1, .i32⟩
  | 115 => ⟨S50000x128, .f32⟩
  | 116 => ⟨S1x128, .f32⟩
  | 117 => ⟨S50000x128, .f32⟩
  | 118 => ⟨S50000x16, .f32⟩
  | 119 => ⟨S850000x1, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x16, .f32⟩

abbrev hbmTy0_1 (i : Nat) : BufTy := match i % 128 with
  | 0 => ⟨S850000x16, .f32⟩
  | 1 => ⟨S850000x16, .f32⟩
  | 2 => ⟨S850000x16, .f32⟩
  | 3 => ⟨S_, .f32⟩
  | 4 => ⟨S50000x16, .f32⟩
  | 5 => ⟨S850000x1, .i32⟩
  | 6 => ⟨S50000x16, .f32⟩
  | 7 => ⟨S1x16, .f32⟩
  | 8 => ⟨S50000x16, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x16, .f32⟩
  | .local _ .vmem, ⟨33, _⟩ => ⟨S5000x16, .f32⟩
  | .local _ .vmem, ⟨34, _⟩ => ⟨S5000x16, .f32⟩
  | .local _ .vmem, ⟨35, _⟩ => ⟨S5000x16, .f32⟩
  | .local _ .vmem, ⟨36, _⟩ => ⟨S5000x16, .f32⟩
  | .local _ .vmem, ⟨37, _⟩ => ⟨S1x16, .f32⟩
  | .local _ .vmem, ⟨38, _⟩ => ⟨S5000x16, .f32⟩
  | .local _ .vmem, ⟨39, _⟩ => ⟨S5000x16, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v19 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_14 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_16 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_17 : Ref sig .tc := ⟨.hbm, 120, rfl⟩
abbrev main_v86 : Ref sig .tc := ⟨.hbm, 121, rfl⟩
abbrev main_v87 : Ref sig .tc := ⟨.hbm, 122, rfl⟩
abbrev main_c_18 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_19 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x16 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x16_S128x16_0_0 : ∀ a, (![0, 0] : Fin 2 → Nat) a + S128x16.size a ≤ S128x16.size a
  h_S128x16 : 0 < S128x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x16_S16x128_S5000x128_1_0_0_1_n_n_wf : DotDims.WF S5000x16 S16x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x16.size a ≤ S128x16.size a
  hwx6_1 : ∀ i : grid6.Coords, EltTy.bits .f32 = 32 ∨ (Rect.block (s := S128x16) S128x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x16.size a ≤ S50000x16.size a
  hwx6_2 : ∀ i : grid6.Coords, EltTy.bits .f32 = 32 ∨ (Rect.block (s := S50000x16) S5000x16.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x16.size a ≤ S50000x16.size a
  hwx7_0 : ∀ i : grid7.Coords, EltTy.bits .f32 = 32 ∨ (Rect.block (s := S50000x16) S5000x16.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x16.size a ≤ S1x16.size a
  hwx7_1 : ∀ i : grid7.Coords, EltTy.bits .f32 = 32 ∨ (Rect.block (s := S1x16) S1x16.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x16.size a ≤ S50000x16.size a
  hwx7_2 : ∀ i : grid7.Coords, EltTy.bits .f32 = 32 ∨ (Rect.block (s := S50000x16) S5000x16.size (cc7_transform_2 i) (hinb7_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v83) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v84) S5000x16.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v97) S5000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v98) S1x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v99) S5000x16.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S800000 : Shape := ⟨1, ![800000]⟩
abbrev S16x128 : Shape := ⟨2, ![16, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S850000x16 : Shape := ⟨2, ![850000, 16]⟩
abbrev S1x16 : Shape := ⟨2, ![1, 16]⟩

abbrev nBuf : Space → Nat
  | .hbm => 150
  | .vmem => 0
  | .smem => 0
  | _ => 0

abbrev hbmTy0_0 (i : Nat) : BufTy := match i % 128 with
  | 0 => ⟨S50000x16, .f32⟩
  | 1 => ⟨S2x800000, .i32⟩
  | 2 => ⟨S800000, .f32⟩
  | 3 => ⟨S16x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x16, .f32⟩
  | 10 => ⟨S16, .f32⟩
  | 11 => ⟨S1x800000, .i32⟩
  | 12 => ⟨S800000, .i32⟩
  | 13 => ⟨S50000, .i32⟩
  | 14 => ⟨S850000, .i32⟩
  | 15 => ⟨S1x800000, .i32⟩
  | 16 => ⟨S800000, .i32⟩
  | 17 => ⟨S50000, .i32⟩
  | 18 => ⟨S850000, .i32⟩
  | 19 => ⟨S_, .f32⟩
  | 20 => ⟨S50000, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .i1⟩
  | 32 => ⟨S_, .f32⟩
  | 33 => ⟨S_, .f32⟩
  | 34 => ⟨S50000, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S850000, .f32⟩
  | 61 => ⟨S50000x128, .f32⟩
  | 62 => ⟨S850000x1, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000x128, .f32⟩
  | 72 => ⟨S850000x128, .f32⟩
  | 73 => ⟨S850000x128, .f32⟩
  | 74 => ⟨S_, .f32⟩
  | 75 => ⟨S50000x128, .f32⟩
  | 76 => ⟨S850000x1, .i32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S850000x1, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .f32⟩
  | 95 => ⟨S850000x128, .f32⟩
  | 96 => ⟨S850000x128, .f32⟩
  | 97 => ⟨S_, .f32⟩
  | 98 => ⟨S50000x128, .f32⟩
  | 99 => ⟨S850000x1, .i32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S50000x128, .f32⟩
  | 108 => ⟨S850000x1, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x128, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x16, .f32⟩

abbrev hbmTy0_1 (i : Nat) : BufTy := match i % 128 with
  | 0 => ⟨S50000x128, .f32⟩
  | 1 => ⟨S50000x128, .f32⟩
  | 2 => ⟨S50000x16, .f32⟩
  | 3 => ⟨S850000x1, .f32⟩
  | 4 => ⟨S_, .i32⟩
  | 5 => ⟨S850000, .i32⟩
  | 6 => ⟨S850000, .i1⟩
  | 7 => ⟨S_, .i32⟩
  | 8 => ⟨S850000, .i32⟩
  | 9 => ⟨S850000, .i32⟩
  | 10 => ⟨S850000, .i32⟩
  | 11 => ⟨S850000x1, .i32⟩
  | 12 => ⟨S850000x16, .f32⟩
  | 13 => ⟨S850000x16, .f32⟩
  | 14 => ⟨S850000x16, .f32⟩
  | 15 => ⟨S_, .f32⟩
  | 16 => ⟨S50000x16, .f32⟩
  | 17 => ⟨S850000x1, .i32⟩
  | 18 => ⟨S50000x16, .f32⟩
  | 19 => ⟨S1x16, .f32⟩
  | 20 => ⟨S50000x16, .f32⟩
  | 21 => ⟨S50000x16, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v19 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call2_cst : Ref sig .tc := ⟨.hbm, 81, rfl⟩
abbrev main_call2_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_c_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call3_cst : Ref sig .tc := ⟨.hbm, 104, rfl⟩
abbrev main_call3_v0 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_14 : Ref sig .tc := ⟨.hbm, 109, rfl⟩
abbrev main_v74 : Ref sig .tc := ⟨.hbm, 110, rfl⟩
abbrev main_v75 : Ref sig .tc := ⟨.hbm, 111, rfl⟩
abbrev main_c_15 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_16 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_call4_cst : Ref sig .tc := ⟨.hbm, 127, rfl⟩
abbrev main_call4_v0 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_17 : Ref sig .tc := ⟨.hbm, 132, rfl⟩
abbrev main_v92 : Ref sig .tc := ⟨.hbm, 133, rfl⟩
abbrev main_v93 : Ref sig .tc := ⟨.hbm, 134, rfl⟩
abbrev main_c_18 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_19 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x16_S16x128_S50000x128_1_0_0_1_n_n_wf : DotDims.WF S50000x16 S16x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.KernelRun.lean ====
/-
  The idealized kernel's run with its RESULT named.

  @main is seventeen segments: nine stretches of host operations and eight pipelined kernel regions. The buffer
  contents at the segment boundaries are a fold from the launch memory (`Gen.W0` … `Gen.W17`): a host stretch
  applies its operations, a region replaces each of its output arrays by what its write-backs leave and keeps every
  other buffer. Every weakly fair execution terminates without a fault in a state whose unscoped buffers hold the
  last boundary's contents `Gen.W17`; read at the result buffer (the last region's output array) and at the
  eleven argument buffers, that is the statement below. What `Gen.W17` holds at the result buffer, as a function
  of the arguments, is the business of the other modules.
-/
import proofs.«155429_j83219286328194_1_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v99) = W17 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v99 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c)⟩)

end Cert.KernelIdeal.KernelRun

end
-- ==== Proof.DotBlock.lean ====
/-
  The four matmul bodies, read at an index.

  Each matmul region's body casts its two loaded blocks to bf16 — the identity on extended reals — and multiplies
  them on the MXU into a zero accumulator. At an index (row r, column c) of the stored block that is the plain sum,
  over the contracted coordinate k, of the input block's entry (r, k) times the weight's entry (k, c): the
  accumulator contributes the real number zero, and the product's contraction index has one axis, so its sum is a
  sum over k.
-/
import proofs.«155429_j83219286328194_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.DotBlock

open Idealize.ShloMosaic Idealize.ShloMosaic.TcCoe Cert.KernelIdeal Cert.KernelIdeal.Gen

/-! ### Region 0: a [5000, 16] block times the [16, 128] weight -/

theorem lhs0_0 (j : S5000x128.Idx) (q : dot_S5000x16_S16x128_S5000x128_1_0_0_1_n_n.contr.Idx) : (dot_S5000x16_S16x128_S5000x128_1_0_0_1_n_n.lhsIdx j q 0).val = (j 0).val := by
  unfold DotDims.lhsIdx
  rw [dif_neg (show ¬(0 : Fin S5000x16.rank) ∈ dot_S5000x16_S16x128_S5000x128_1_0_0_1_n_n.lhsBatch by decide), dif_pos (show (0 : Fin S5000x16.rank) ∈ dot_S5000x16_S16x128_S5000x128_1_0_0_1_n_n.lhsNonContracting by decide)]
  rfl
theorem lhs0_1 (j : S5000x128.Idx) (q : dot_S5000x16_S16x128_S5000x128_1_0_0_1_n_n.contr.Idx) : (dot_S5000x16_S16x128_S5000x128_1_0_0_1_n_n.lhsIdx j q 1).val = (q ⟨0, by decide⟩).val :=
  dot_S5000x16_S16x128_S5000x128_1_0_0_1_n_n.lhsIdx_val_of_single rfl j q
theorem rhs0_0 (j : S5000x128.Idx) (q : dot_S5000x16_S16x128_S5000x128_1_0_0_1_n_n.contr.Idx) : (dot_S5000x16_S16x128_S5000x128_1_0_0_1_n_n.rhsIdx j q 0).val = (q ⟨0, by decide⟩).val :=
  dot_S5000x16_S16x128_S5000x128_1_0_0_1_n_n.rhsIdx_val_of_single rfl j q
theorem rhs0_1 (j : S5000x128.Idx) (q : dot_S5000x16_S16x128_S5000x128_1_0_0_1_n_n.contr.Idx) : (dot_S5000x16_S16x128_S5000x128_1_0_0_1_n_n.rhsIdx j q 1).val = (j 1).val := by
  unfold DotDims.rhsIdx
  rw [dif_neg (show ¬(1 : Fin S16x128.rank) ∈ dot_S5000x16_S16x128_S5000x128_1_0_0_1_n_n.rhsBatch by decide), dif_pos (show (1 : Fin S16x128.rank) ∈ dot_S5000x16_S16x128_S5000x128_1_0_0_1_n_n.rhsNonContracting by decide)]
  rfl

/-- Row `j 0` of the block, column `k`. -/
abbrev rowAt0 (j : S5000x128.Idx) (k : Fin 16) : S5000x16.Idx := fun a => match a with
  | ⟨0, _⟩ => ⟨(j 0).val, (j 0).isLt⟩
  | ⟨1, _⟩ => ⟨k.val, k.isLt⟩
/-- Row `k` of the weight, column `j 1`. -/
abbrev colAt0 (j : S5000x128.Idx) (k : Fin 16) : S16x128.Idx := fun a => match a with
  | ⟨0, _⟩ => ⟨k.val, k.isLt⟩
  | ⟨1, _⟩ => ⟨(j 1).val, (j 1).isLt⟩

/-- The body's product at an index: the sum over the contracted coordinate of row times column. -/
theorem pay0_apply (xb : Vec Ideal S5000x16 .f32) (wb : Vec Ideal S16x128 .f32) (j : S5000x128.Idx) :
    k0_pay1 (F := Ideal) xb wb j = ∑ k : Fin 16, xb (rowAt0 j k) * wb (colAt0 j k) := by
  unfold k0_pay1
  simp only [matmul, shapeCast_self]
  rw [Ideal.matmul_constant_zero_apply, ← Equiv.sum_comp (ValueIdx.contrEquiv1 dot_S5000x16_S16x128_S5000x128_1_0_0_1_n_n 16 rfl rfl).symm]
  refine Finset.sum_congr rfl fun k _ => ?_
  have hk := ValueIdx.contrEquiv1_symm_val dot_S5000x16_S16x128_S5000x128_1_0_0_1_n_n 16 rfl rfl k
  have el : dot_S5000x16_S16x128_S5000x128_1_0_0_1_n_n.lhsIdx j ((ValueIdx.contrEquiv1 dot_S5000x16_S16x128_S5000x128_1_0_0_1_n_n 16 rfl rfl).symm k) = rowAt0 j k := funext fun a => Fin.ext (by
    match a with
    | ⟨0, _⟩ => exact lhs0_0 _ _
    | ⟨1, _⟩ => exact (lhs0_1 _ _).trans hk)
  have er : dot_S5000x16_S16x128_S5000x128_1_0_0_1_n_n.rhsIdx j ((ValueIdx.contrEquiv1 dot_S5000x16_S16x128_S5000x128_1_0_0_1_n_n 16 rfl rfl).symm k) = colAt0 j k := funext fun a => Fin.ext (by
    match a with
    | ⟨0, _⟩ => exact (rhs0_0 _ _).trans hk
    | ⟨1, _⟩ => exact rhs0_1 _ _)
  rw [el, er]
  rfl

/-! ### Region 2: a [5000, 128] block times the [128, 128] weight -/

theorem lhs2_0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs2_1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs2_0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs2_1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `j 0` of the block, column `k`. -/
abbrev rowAt2 (j : S5000x128.Idx) (k : Fin 128) : S5000x128.Idx := fun a => match a with
  | ⟨0, _⟩ => ⟨(j 0).val, (j 0).isLt⟩
  | ⟨1, _⟩ => ⟨k.val, k.isLt⟩
/-- Row `k` of the weight, column `j 1`. -/
abbrev colAt2 (j : S5000x128.Idx) (k : Fin 128) : S128x128.Idx := fun a => match a with
  | ⟨0, _⟩ => ⟨k.val, k.isLt⟩
  | ⟨1, _⟩ => ⟨(j 1).val, (j 1).isLt⟩

/-- The body's product at an index: the sum over the contracted coordinate of row times column. -/
theorem pay2_apply (xb : Vec Ideal S5000x128 .f32) (wb : Vec Ideal S128x128 .f32) (j : S5000x128.Idx) :
    k2_pay1 (F := Ideal) xb wb j = ∑ k : Fin 128, xb (rowAt2 j k) * wb (colAt2 j k) := by
  unfold k2_pay1
  simp only [matmul, shapeCast_self]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowAt2 j k := funext fun a => Fin.ext (by
    match a with
    | ⟨0, _⟩ => exact lhs2_0 _ _
    | ⟨1, _⟩ => exact (lhs2_1 _ _).trans hk)
  have er : dot_S5000x128_S128x128_S5000x128_1_0_0_1_n_n.rhsIdx j ((ValueIdx.contrEquiv1 dot_S5000x128_S128x128_S5000x128_1_0_0_1_n_n 128 rfl rfl).symm k) = colAt2 j k := funext fun a => Fin.ext (by
    match a with
    | ⟨0, _⟩ => exact (rhs2_0 _ _).trans hk
    | ⟨1, _⟩ => exact rhs2_1 _ _)
  rw [el, er]
  rfl

/-! ### Region 4: a [5000, 128] block times the [128, 128] weight -/

theorem lhs4_0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs4_1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs4_0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs4_1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `j 0` of the block, column `k`. -/
abbrev rowAt4 (j : S5000x128.Idx) (k : Fin 128) : S5000x128.Idx := fun a => match a with
  | ⟨0, _⟩ => ⟨(j 0).val, (j 0).isLt⟩
  | ⟨1, _⟩ => ⟨k.val, k.isLt⟩
/-- Row `k` of the weight, column `j 1`. -/
abbrev colAt4 (j : S5000x128.Idx) (k : Fin 128) : S128x128.Idx := fun a => match a with
  | ⟨0, _⟩ => ⟨k.val, k.isLt⟩
  | ⟨1, _⟩ => ⟨(j 1).val, (j 1).isLt⟩

/-- The body's product at an index: the sum over the contracted coordinate of row times column. -/
theorem pay4_apply (xb : Vec Ideal S5000x128 .f32) (wb : Vec Ideal S128x128 .f32) (j : S5000x128.Idx) :
    k4_pay1 (F := Ideal) xb wb j = ∑ k : Fin 128, xb (rowAt4 j k) * wb (colAt4 j k) := by
  unfold k4_pay1
  simp only [matmul, shapeCast_self]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowAt4 j k := funext fun a => Fin.ext (by
    match a with
    | ⟨0, _⟩ => exact lhs4_0 _ _
    | ⟨1, _⟩ => exact (lhs4_1 _ _).trans hk)
  have er : dot_S5000x128_S128x128_S5000x128_1_0_0_1_n_n.rhsIdx j ((ValueIdx.contrEquiv1 dot_S5000x128_S128x128_S5000x128_1_0_0_1_n_n 128 rfl rfl).symm k) = colAt4 j k := funext fun a => Fin.ext (by
    match a with
    | ⟨0, _⟩ => exact (rhs4_0 _ _).trans hk
    | ⟨1, _⟩ => exact rhs4_1 _ _)
  rw [el, er]
  rfl

/-! ### Region 6: a [5000, 128] block times the [128, 16] weight -/

theorem lhs6_0 (j : S5000x16.Idx) (q : dot_S5000x128_S128x16_S5000x16_1_0_0_1_n_n.contr.Idx) : (dot_S5000x128_S128x16_S5000x16_1_0_0_1_n_n.lhsIdx j q 0).val = (j 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem lhs6_1 (j : S5000x16.Idx) (q : dot_S5000x128_S128x16_S5000x16_1_0_0_1_n_n.contr.Idx) : (dot_S5000x128_S128x16_S5000x16_1_0_0_1_n_n.lhsIdx j q 1).val = (q ⟨0, by decide⟩).val :=
  dot_S5000x128_S128x16_S5000x16_1_0_0_1_n_n.lhsIdx_val_of_single rfl j q
theorem rhs6_0 (j : S5000x16.Idx) (q : dot_S5000x128_S128x16_S5000x16_1_0_0_1_n_n.contr.Idx) : (dot_S5000x128_S128x16_S5000x16_1_0_0_1_n_n.rhsIdx j q 0).val = (q ⟨0, by decide⟩).val :=
  dot_S5000x128_S128x16_S5000x16_1_0_0_1_n_n.rhsIdx_val_of_single rfl j q
theorem rhs6_1 (j : S5000x16.Idx) (q : dot_S5000x128_S128x16_S5000x16_1_0_0_1_n_n.contr.Idx) : (dot_S5000x128_S128x16_S5000x16_1_0_0_1_n_n.rhsIdx j q 1).val = (j 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- Row `j 0` of the block, column `k`. -/
abbrev rowAt6 (j : S5000x16.Idx) (k : Fin 128) : S5000x128.Idx := fun a => match a with
  | ⟨0, _⟩ => ⟨(j 0).val, (j 0).isLt⟩
  | ⟨1, _⟩ => ⟨k.val, k.isLt⟩
/-- Row `k` of the weight, column `j 1`. -/
abbrev colAt6 (j : S5000x16.Idx) (k : Fin 128) : S128x16.Idx := fun a => match a with
  | ⟨0, _⟩ => ⟨k.val, k.isLt⟩
  | ⟨1, _⟩ => ⟨(j 1).val, (j 1).isLt⟩

/-- The body's product at an index: the sum over the contracted coordinate of row times column. -/
theorem pay6_apply (xb : Vec Ideal S5000x128 .f32) (wb : Vec Ideal S128x16 .f32) (j : S5000x16.Idx) :
    k6_pay1 (F := Ideal) xb wb j = ∑ k : Fin 128, xb (rowAt6 j k) * wb (colAt6 j k) := by
  unfold k6_pay1
  simp only [matmul, shapeCast_self]
  rw [Ideal.matmul_constant_zero_apply, ← Equiv.sum_comp (ValueIdx.contrEquiv1 dot_S5000x128_S128x16_S5000x16_1_0_0_1_n_n 128 rfl rfl).symm]
  refine Finset.sum_congr rfl fun k _ => ?_
  have hk := ValueIdx.contrEquiv1_symm_val dot_S5000x128_S128x16_S5000x16_1_0_0_1_n_n 128 rfl rfl k
  have el : dot_S5000x128_S128x16_S5000x16_1_0_0_1_n_n.lhsIdx j ((ValueIdx.contrEquiv1 dot_S5000x128_S128x16_S5000x16_1_0_0_1_n_n 128 rfl rfl).symm k) = rowAt6 j k := funext fun a => Fin.ext (by
    match a with
    | ⟨0, _⟩ => exact lhs6_0 _ _
    | ⟨1, _⟩ => exact (lhs6_1 _ _).trans hk)
  have er : dot_S5000x128_S128x16_S5000x16_1_0_0_1_n_n.rhsIdx j ((ValueIdx.contrEquiv1 dot_S5000x128_S128x16_S5000x16_1_0_0_1_n_n 128 rfl rfl).symm k) = colAt6 j k := funext fun a => Fin.ext (by
    match a with
    | ⟨0, _⟩ => exact (rhs6_0 _ _).trans hk
    | ⟨1, _⟩ => exact rhs6_1 _ _)
  rw [el, er]
  rfl

end Cert.KernelIdeal.DotBlock

end
-- ==== Proof.DotHost.lean ====
/-
  The reference's three matrix products, read at an index, for ARBITRARY operands.

  On extended reals the host's dot_general of a [50000, K] array with a [K, C] array is, at (r, c), the sum over k of
  X (r, k) · W (k, c). The index lemmas about the products' dimension records do not mention the operands, so the
  statement holds for any X and W — which is what lets the kernel's regions, whose operands are whatever the
  preceding segments left, be compared with it.
-/
import proofs.«155429_j83219286328194_1_alg».proof.Proof.Gen.ReferenceIdeal.Read

noncomputable section

namespace Cert.ReferenceIdeal.DotHost

open Cert.ReferenceIdeal Cert.ReferenceIdeal.Gen Cert.ReferenceIdeal.Read Idealize.ShloMosaic Idealize.ShloMosaic.TcCoe

/-- The host's [50000, 16] × [16, 128] product at an index, for any operands. -/
theorem dot16_128_apply (X : (⟨S50000x16, .f32⟩ : BufTy).Contents (Elt Ideal)) (W : (⟨S16x128, .f32⟩ : BufTy).Contents (Elt Ideal)) (i : S50000x128.Idx) :
    Host.dotGeneral (F := Ideal) (φ₁ := .f32) (φ₂ := .f32) dot_S50000x16_S16x128_S50000x128_1_0_0_1_n_n none X W i = ∑ k : Fin 16, X (lidx_main_v36 i k) * W (ridx_main_v36 i k) := by
  simp only [Host.dotGeneral]
  rw [Ideal.dotGeneral_apply, ← Equiv.sum_comp (ValueIdx.contrEquiv1 dot_S50000x16_S16x128_S50000x128_1_0_0_1_n_n 16 rfl rfl).symm]
  refine Finset.sum_congr rfl fun k _ => ?_
  have hk := ValueIdx.contrEquiv1_symm_val dot_S50000x16_S16x128_S50000x128_1_0_0_1_n_n 16 rfl rfl k
  have el : dot_S50000x16_S16x128_S50000x128_1_0_0_1_n_n.lhsIdx i ((ValueIdx.contrEquiv1 dot_S50000x16_S16x128_S50000x128_1_0_0_1_n_n 16 rfl rfl).symm k) = lidx_main_v36 i k := funext fun a => Fin.ext (by
    match a with
    | ⟨0, _⟩ => exact lhs_main_v36_0 _ _
    | ⟨1, _⟩ => exact (lhs_main_v36_1 _ _).trans hk)
  have er : dot_S50000x16_S16x128_S50000x128_1_0_0_1_n_n.rhsIdx i ((ValueIdx.contrEquiv1 dot_S50000x16_S16x128_S50000x128_1_0_0_1_n_n 16 rfl rfl).symm k) = ridx_main_v36 i k := funext fun a => Fin.ext (by
    match a with
    | ⟨0, _⟩ => exact (rhs_main_v36_0 _ _).trans hk
    | ⟨1, _⟩ => exact rhs_main_v36_1 _ _)
  rw [el, er]

/-- The host's [50000, 128] × [128, 128] product at an index, for any operands. -/
theorem dot128_128_apply (X : (⟨S50000x128, .f32⟩ : BufTy).Contents (Elt Ideal)) (W : (⟨S128x128, .f32⟩ : BufTy).Contents (Elt Ideal)) (i : S50000x128.Idx) :
    Host.dotGeneral (F := Ideal) (φ₁ := .f32) (φ₂ := .f32) dot_S50000x128_S128x128_S50000x128_1_0_0_1_n_n none X W i = ∑ k : Fin 128, X (lidx_main_v54 i k) * W (ridx_main_v54 i k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v54 i k := funext fun a => Fin.ext (by
    match a with
    | ⟨0, _⟩ => exact lhs_main_v54_0 _ _
    | ⟨1, _⟩ => exact (lhs_main_v54_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v54 i k := funext fun a => Fin.ext (by
    match a with
    | ⟨0, _⟩ => exact (rhs_main_v54_0 _ _).trans hk
    | ⟨1, _⟩ => exact rhs_main_v54_1 _ _)
  rw [el, er]

/-- The host's [50000, 128] × [128, 16] product at an index, for any operands. -/
theorem dot128_16_apply (X : (⟨S50000x128, .f32⟩ : BufTy).Contents (Elt Ideal)) (W : (⟨S128x16, .f32⟩ : BufTy).Contents (Elt Ideal)) (i : S50000x16.Idx) :
    Host.dotGeneral (F := Ideal) (φ₁ := .f32) (φ₂ := .f32) dot_S50000x128_S128x16_S50000x16_1_0_0_1_n_n none X W i = ∑ k : Fin 128, X (lidx_main_v90 i k) * W (ridx_main_v90 i k) := by
  simp only [Host.dotGeneral]
  rw [Ideal.dotGeneral_apply, ← Equiv.sum_comp (ValueIdx.contrEquiv1 dot_S50000x128_S128x16_S50000x16_1_0_0_1_n_n 128 rfl rfl).symm]
  refine Finset.sum_congr rfl fun k _ => ?_
  have hk := ValueIdx.contrEquiv1_symm_val dot_S50000x128_S128x16_S50000x16_1_0_0_1_n_n 128 rfl rfl k
  have el : dot_S50000x128_S128x16_S50000x16_1_0_0_1_n_n.lhsIdx i ((ValueIdx.contrEquiv1 dot_S50000x128_S128x16_S50000x16_1_0_0_1_n_n 128 rfl rfl).symm k) = lidx_main_v90 i k := funext fun a => Fin.ext (by
    match a with
    | ⟨0, _⟩ => exact lhs_main_v90_0 _ _
    | ⟨1, _⟩ => exact (lhs_main_v90_1 _ _).trans hk)
  have er : dot_S50000x128_S128x16_S50000x16_1_0_0_1_n_n.rhsIdx i ((ValueIdx.contrEquiv1 dot_S50000x128_S128x16_S50000x16_1_0_0_1_n_n 128 rfl rfl).symm k) = ridx_main_v90 i k := funext fun a => Fin.ext (by
    match a with
    | ⟨0, _⟩ => exact (rhs_main_v90_0 _ _).trans hk
    | ⟨1, _⟩ => exact rhs_main_v90_1 _ _)
  rw [el, er]

end Cert.ReferenceIdeal.DotHost

end
-- ==== Proof.Region0.lean ====
/-
  Region 0 (a matrix product), as one whole-array function of the arrays it finds.

  The grid has ten points; point t stages rows 5000·t … 5000·t + 4999 of the input array and the whole weight, and
  writes back rows 5000·t … 5000·t + 4999 of the output array. What it writes at local (r, c) is the sum over k of
  input (5000·t + r, k) · weight (k, c) — which is the host's dot_general of the two whole arrays read at
  (5000·t + r, c). The ten row bands tile the output array, so after the region the output array IS that dot_general.
-/
import proofs.«155429_j83219286328194_1_alg».proof.Proof.Gen.KernelIdeal.Frame
import proofs.«155429_j83219286328194_1_alg».proof.Proof.DotBlock
import proofs.«155429_j83219286328194_1_alg».proof.Proof.DotHost
import Idealize.ShloMosaic.Lib.Pipeline.Value

noncomputable section

namespace Cert.KernelIdeal.Region0

open Idealize.ShloMosaic Idealize.ShloMosaic.TcCoe Idealize.SL Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input and the output move down the rows with the point, the weight stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole-array product of what the region finds in its two input arrays. -/
abbrev product (c : Dev nD) : Buf (Elt Ideal) ((cfg0.win 2).arr.view.loc (c.tc : Thread nD τ)) :=
  Host.dotGeneral (F := Ideal) (φ₁ := .f32) (φ₂ := .f32) Cert.ReferenceIdeal.dot_S50000x16_S16x128_S50000x128_1_0_0_1_n_n none (V c main_arg0) (V c main_arg3)

/-- What point `t` writes back is its row band of the whole-array product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S5000x16) origin, View.ld_unit_zero (S := S16x128) origin]
  obtain ⟨e0, e1, e2, e3, e4, e5⟩ := index_maps t
  funext j
  refine (DotBlock.pay0_apply (iblk0 V c 0 t) (iblk0 V c 1 t) j).trans ?_
  refine Eq.trans ?_ (Cert.ReferenceIdeal.DotHost.dot16_128_apply (V c main_arg0) (V c main_arg3) (((cfg0.win 2).blk t).view.emb j)).symm
  refine Finset.sum_congr rfl fun k _ => ?_
  have h0 : ((cfg0.win 0).blk t).view.emb (DotBlock.rowAt0 j k) = Cert.ReferenceIdeal.Read.lidx_main_v36 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 16 + 1 * k.val = k.val; omega
  have h1 : ((cfg0.win 1).blk t).view.emb (DotBlock.colAt0 j k) = Cert.ReferenceIdeal.Read.ridx_main_v36 (((cfg0.win 2).blk t).view.emb j) k := by
    funext a; apply Fin.ext
    match a with
    | ⟨0, _⟩ => show win0_1.index t (0 : Fin 2) * 16 + 1 * k.val = k.val; omega
    | ⟨1, _⟩ => show win0_1.index t (1 : Fin 2) * 128 + 1 * (j 1).val = win0_2.index t (1 : Fin 2) * 128 + 1 * (j 1).val; omega
  show FloatOps.mulf (F := Ideal) (φ := .f32) (V c main_arg0 (((cfg0.win 0).blk t).view.emb (DotBlock.rowAt0 j k))) (V c main_arg3 (((cfg0.win 1).blk t).view.emb (DotBlock.colAt0 j k))) = _
  rw [h0, h1]
  rfl

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v36).slice (win0_2.rect t)).set ↔ _
  rw [View.set_slice_whole, Rect.mem_set_unit]
  exact Iff.rfl

/-- Row r of the output array is written by the point r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show _ < grid0.N; omega⟩, rfl⟩
  obtain ⟨e0, e1, e2, e3, e4, e5⟩ := index_maps t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its output array holds the whole-array product of its two input arrays as found. -/
theorem array (c : Dev nD) : (dat0 V c).arrAt 2 cfg0.N = product V c :=
  (dat0 V c).arrAt_eq_of_cover 2 (product V c) (fun t _ => flushed_eq V c t) (cover)

end Cert.KernelIdeal.Region0

end
-- ==== Proof.BiasBlock.lean ====
/-
  The four bias bodies, read at an index.

  Each bias region's body adds to its loaded [5000, C] block the loaded [1, C] bias row broadcast down the rows, and
  in the three hidden layers takes the elementwise maximum with a splat of the real number zero (the word 0x00000000).
  The shape casts in the body are casts of a shape to itself. At (r, c) the stored block is therefore
  block (r, c) + bias (0, c), under the maximum with zero where the layer has one.
-/
import proofs.«155429_j83219286328194_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BiasBlock

open Idealize.ShloMosaic Idealize.ShloMosaic.TcCoe Cert.KernelIdeal Cert.KernelIdeal.Gen

/-! ### Region 1: a [5000, 128] block plus the [1, 128] bias row, then the maximum with zero -/

/-- The bias row's entry under column `j 1`. -/
abbrev biasAt1 (j : S5000x128.Idx) : S1x128.Idx := fun a => match a with
  | ⟨0, _⟩ => ⟨0, Nat.one_pos⟩
  | ⟨1, _⟩ => ⟨(j 1).val, (j 1).isLt⟩

theorem pay1_apply (ab : Vec Ideal S5000x128 .f32) (bb : Vec Ideal S1x128 .f32) (j : S5000x128.Idx) :
    k1_pay1 (F := Ideal) ab bb j = max (ab j + bb (biasAt1 j)) (Ideal.ofBits .f32 0x00000000#32) := by
  unfold k1_pay1
  simp only [shapeCast_self]
  have hb : broadcastTo S5000x128 bb broadcasts_S1x128_S5000x128 j = bb (biasAt1 j) :=
    broadcastTo_apply bb broadcasts_S1x128_S5000x128 j (biasAt1 j) (fun a => match a with
      | ⟨0, _⟩ => by show 0 = if (1 : Nat) = 1 then 0 else _; rw [if_pos rfl]
      | ⟨1, _⟩ => by show (j 1).val = if (128 : Nat) = 1 then 0 else (j 1).val; rw [if_neg (by decide)])
  show max (ab j + broadcastTo S5000x128 bb broadcasts_S1x128_S5000x128 j) _ = _
  rw [hb]
  rfl

/-! ### Region 3: a [5000, 128] block plus the [1, 128] bias row, then the maximum with zero -/

/-- The bias row's entry under column `j 1`. -/
abbrev biasAt3 (j : S5000x128.Idx) : S1x128.Idx := fun a => match a with
  | ⟨0, _⟩ => ⟨0, Nat.one_pos⟩
  | ⟨1, _⟩ => ⟨(j 1).val, (j 1).isLt⟩

theorem pay3_apply (ab : Vec Ideal S5000x128 .f32) (bb : Vec Ideal S1x128 .f32) (j : S5000x128.Idx) :
    k3_pay1 (F := Ideal) ab bb j = max (ab j + bb (biasAt3 j)) (Ideal.ofBits .f32 0x00000000#32) := by
  unfold k3_pay1
  simp only [shapeCast_self]
  have hb : broadcastTo S5000x128 bb broadcasts_S1x128_S5000x128 j = bb (biasAt3 j) :=
    broadcastTo_apply bb broadcasts_S1x128_S5000x128 j (biasAt3 j) (fun a => match a with
      | ⟨0, _⟩ => by show 0 = if (1 : Nat) = 1 then 0 else _; rw [if_pos rfl]
      | ⟨1, _⟩ => by show (j 1).val = if (128 : Nat) = 1 then 0 else (j 1).val; rw [if_neg (by decide)])
  show max (ab j + broadcastTo S5000x128 bb broadcasts_S1x128_S5000x128 j) _ = _
  rw [hb]
  rfl

/-! ### Region 5: a [5000, 128] block plus the [1, 128] bias row, then the maximum with zero -/

/-- The bias row's entry under column `j 1`. -/
abbrev biasAt5 (j : S5000x128.Idx) : S1x128.Idx := fun a => match a with
  | ⟨0, _⟩ => ⟨0, Nat.one_pos⟩
  | ⟨1, _⟩ => ⟨(j 1).val, (j 1).isLt⟩

theorem pay5_apply (ab : Vec Ideal S5000x128 .f32) (bb : Vec Ideal S1x128 .f32) (j : S5000x128.Idx) :
    k5_pay1 (F := Ideal) ab bb j = max (ab j + bb (biasAt5 j)) (Ideal.ofBits .f32 0x00000000#32) := by
  unfold k5_pay1
  simp only [shapeCast_self]
  have hb : broadcastTo S5000x128 bb broadcasts_S1x128_S5000x128 j = bb (biasAt5 j) :=
    broadcastTo_apply bb broadcasts_S1x128_S5000x128 j (biasAt5 j) (fun a => match a with
      | ⟨0, _⟩ => by show 0 = if (1 : Nat) = 1 then 0 else _; rw [if_pos rfl]
      | ⟨1, _⟩ => by show (j 1).val = if (128 : Nat) = 1 then 0 else (j 1).val; rw [if_neg (by decide)])
  show max (ab j + broadcastTo S5000x128 bb broadcasts_S1x128_S5000x128 j) _ = _
  rw [hb]
  rfl

/-! ### Region 7: a [5000, 16] block plus the [1, 16] bias row -/

/-- The bias row's entry under column `j 1`. -/
abbrev biasAt7 (j : S5000x16.Idx) : S1x16.Idx := fun a => match a with
  | ⟨0, _⟩ => ⟨0, Nat.one_pos⟩
  | ⟨1, _⟩ => ⟨(j 1).val, (j 1).isLt⟩

theorem pay7_apply (ab : Vec Ideal S5000x16 .f32) (bb : Vec Ideal S1x16 .f32) (j : S5000x16.Idx) :
    k7_pay1 (F := Ideal) ab bb j = ab j + bb (biasAt7 j) := by
  unfold k7_pay1
  simp only [shapeCast_self]
  have hb : broadcastTo S5000x16 bb broadcasts_S1x16_S5000x16 j = bb (biasAt7 j) :=
    broadcastTo_apply bb broadcasts_S1x16_S5000x16 j (biasAt7 j) (fun a => match a with
      | ⟨0, _⟩ => by show 0 = if (1 : Nat) = 1 then 0 else _; rw [if_pos rfl]
      | ⟨1, _⟩ => by show (j 1).val = if (16 : Nat) = 1 then 0 else (j 1).val; rw [if_neg (by decide)])
  show ab j + broadcastTo S5000x16 bb broadcasts_S1x16_S5000x16 j = _
  rw [hb]

end Cert.KernelIdeal.BiasBlock

end
-- ==== Proof.Region1.lean ====
/-
  Region 1 (bias and rectifier), as one whole-array function of the arrays it finds.

  The grid has ten points; point t stages rows 5000·t … 5000·t + 4999 of the aggregated array and the whole [1, 128]
  bias row, and writes back the same row band of the output array: at local (r, c) the value
  aggregated (5000·t + r, c) + bias (0, c), under the maximum with zero. That is one function of the array index, and the ten row
  bands tile the output array.
-/
import proofs.«155429_j83219286328194_1_alg».proof.Proof.Gen.KernelIdeal.Frame
import proofs.«155429_j83219286328194_1_alg».proof.Proof.BiasBlock
import Idealize.ShloMosaic.Lib.Pipeline.Value

noncomputable section

namespace Cert.KernelIdeal.Region1

open Idealize.ShloMosaic Idealize.ShloMosaic.TcCoe Idealize.SL Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input and the output move down the rows with the point, the bias row stays. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The bias row's entry under column `i 1` of the array. -/
abbrev biasRow (i : S50000x128.Idx) : S1x128.Idx := fun a => match a with
  | ⟨0, _⟩ => ⟨0, Nat.one_pos⟩
  | ⟨1, _⟩ => ⟨(i 1).val, (i 1).isLt⟩

/-- The whole-array function of two plain arrays: the aggregated array plus the bias row, rectified. -/
def biasedOf (A : S50000x128.Idx → EReal) (B : S1x128.Idx → EReal) : S50000x128.Idx → EReal :=
  fun i => max (A i + B (biasRow i)) (Ideal.ofBits .f32 0x00000000#32)

/-- … of the two input arrays as the region finds them. -/
abbrev biased (c : Dev nD) : Buf (Elt Ideal) ((cfg1.win 2).arr.view.loc (c.tc : Thread nD τ)) :=
  biasedOf (V c main_v49) (V c main_v50)

/-- What point `t` writes back is its row band of the whole-array function. -/
theorem flushed_eq (c : Dev nD) (t : Fin cfg1.N) :
    (dat1 V c).flushed 2 t = ((cfg1.win 2).blk t).view.read (Elt Ideal) (biased V c) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := index_maps t
  funext j
  refine (BiasBlock.pay1_apply (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (BiasBlock.biasAt1 j) = biasRow (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  show FloatOps.maximumf (FloatOps.addf (V c main_v49 (((cfg1.win 0).blk t).view.emb j)) (V c main_v50 (((cfg1.win 1).blk t).view.emb (BiasBlock.biasAt1 j)))) (Ideal.ofBits .f32 0x00000000#32) = _
  rw [h0, h1]
  rfl

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v51).slice (win1_2.rect t)).set ↔ _
  rw [View.set_slice_whole, Rect.mem_set_unit]
  exact Iff.rfl

/-- Row r of the output array is written by the point r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 := ⟨⟨(i 0).val / 5000, by show _ < grid1.N; omega⟩, rfl⟩
  obtain ⟨e0, e1, e2, e3, e4, e5⟩ := index_maps t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its output array holds the whole-array function of its two input arrays as found. -/
theorem array (c : Dev nD) : (dat1 V c).arrAt 2 cfg1.N = biased V c :=
  (dat1 V c).arrAt_eq_of_cover 2 (biased V c) (fun t _ => flushed_eq V c t) (cover)

end Cert.KernelIdeal.Region1

end
-- ==== Proof.Region2.lean ====
/-
  Region 2 (a matrix product), as one whole-array function of the arrays it finds.

  The grid has ten points; point t stages rows 5000·t … 5000·t + 4999 of the input array and the whole weight, and
  writes back rows 5000·t … 5000·t + 4999 of the output array. What it writes at local (r, c) is the sum over k of
  input (5000·t + r, k) · weight (k, c) — which is the host's dot_general of the two whole arrays read at
  (5000·t + r, c). The ten row bands tile the output array, so after the region the output array IS that dot_general.
-/
import proofs.«155429_j83219286328194_1_alg».proof.Proof.Gen.KernelIdeal.Frame
import proofs.«155429_j83219286328194_1_alg».proof.Proof.DotBlock
import proofs.«155429_j83219286328194_1_alg».proof.Proof.DotHost
import Idealize.ShloMosaic.Lib.Pipeline.Value

noncomputable section

namespace Cert.KernelIdeal.Region2

open Idealize.ShloMosaic Idealize.ShloMosaic.TcCoe Idealize.SL Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input and the output move down the rows with the point, the weight stays. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The whole-array product of what the region finds in its two input arrays. -/
abbrev product (c : Dev nD) : Buf (Elt Ideal) ((cfg2.win 2).arr.view.loc (c.tc : Thread nD τ)) :=
  Host.dotGeneral (F := Ideal) (φ₁ := .f32) (φ₂ := .f32) Cert.ReferenceIdeal.dot_S50000x128_S128x128_S50000x128_1_0_0_1_n_n none (V c main_v51) (V c main_arg5)

/-- What point `t` writes back is its row band of the whole-array product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e0, e1, e2, e3, e4, e5⟩ := index_maps t
  funext j
  refine (DotBlock.pay2_apply (iblk2 V c 0 t) (iblk2 V c 1 t) j).trans ?_
  refine Eq.trans ?_ (Cert.ReferenceIdeal.DotHost.dot128_128_apply (V c main_v51) (V c main_arg5) (((cfg2.win 2).blk t).view.emb j)).symm
  refine Finset.sum_congr rfl fun k _ => ?_
  have h0 : ((cfg2.win 0).blk t).view.emb (DotBlock.rowAt2 j k) = Cert.ReferenceIdeal.Read.lidx_main_v54 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (DotBlock.colAt2 j k) = Cert.ReferenceIdeal.Read.ridx_main_v54 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  show FloatOps.mulf (F := Ideal) (φ := .f32) (V c main_v51 (((cfg2.win 0).blk t).view.emb (DotBlock.rowAt2 j k))) (V c main_arg5 (((cfg2.win 1).blk t).view.emb (DotBlock.colAt2 j k))) = _
  rw [h0, h1]
  rfl

/-- An index of the output array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v52).slice (win2_2.rect t)).set ↔ _
  rw [View.set_slice_whole, Rect.mem_set_unit]
  exact Iff.rfl

/-- Row r of the output array is written by the point r / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 := ⟨⟨(i 0).val / 5000, by show _ < grid2.N; omega⟩, rfl⟩
  obtain ⟨e0, e1, e2, e3, e4, e5⟩ := index_maps t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region its output array holds the whole-array product of its two input arrays as found. -/
theorem array (c : Dev nD) : (dat2 V c).arrAt 2 cfg2.N = product V c :=
  (dat2 V c).arrAt_eq_of_cover 2 (product V c) (fun t _ => flushed_eq V c t) (cover)

end Cert.KernelIdeal.Region2

end
-- ==== Proof.Region3.lean ====
/-
  Region 3 (bias and rectifier), as one whole-array function of the arrays it finds.

  The grid has ten points; point t stages rows 5000·t … 5000·t + 4999 of the aggregated array and the whole [1, 128]
  bias row, and writes back the same row band of the output array: at local (r, c) the value
  aggregated (5000·t + r, c) + bias (0, c), under the maximum with zero. That is one function of the array index, and the ten row
  bands tile the output array.
-/
import proofs.«155429_j83219286328194_1_alg».proof.Proof.Gen.KernelIdeal.Frame
import proofs.«155429_j83219286328194_1_alg».proof.Proof.BiasBlock
import Idealize.ShloMosaic.Lib.Pipeline.Value

noncomputable section

namespace Cert.KernelIdeal.Region3

open Idealize.ShloMosaic Idealize.ShloMosaic.TcCoe Idealize.SL Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input and the output move down the rows with the point, the bias row stays. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The bias row's entry under column `i 1` of the array. -/
abbrev biasRow (i : S50000x128.Idx) : S1x128.Idx := fun a => match a with
  | ⟨0, _⟩ => ⟨0, Nat.one_pos⟩
  | ⟨1, _⟩ => ⟨(i 1).val, (i 1).isLt⟩

/-- The whole-array function of two plain arrays: the aggregated array plus the bias row, rectified. -/
def biasedOf (A : S50000x128.Idx → EReal) (B : S1x128.Idx → EReal) : S50000x128.Idx → EReal :=
  fun i => max (A i + B (biasRow i)) (Ideal.ofBits .f32 0x00000000#32)

/-- … of the two input arrays as the region finds them. -/
abbrev biased (c : Dev nD) : Buf (Elt Ideal) ((cfg3.win 2).arr.view.loc (c.tc : Thread nD τ)) :=
  biasedOf (V c main_v65) (V c main_v66)

/-- What point `t` writes back is its row band of the whole-array function. -/
theorem flushed_eq (c : Dev nD) (t : Fin cfg3.N) :
    (dat3 V c).flushed 2 t = ((cfg3.win 2).blk t).view.read (Elt Ideal) (biased V c) := by
  show (cfg3.win 2).cut (grid3.coords t) ((dat3 V c).after 2 t) = _
  rw [after3_2]
  unfold out3_2
  rw [View.canon_unit_zero origin]
  simp only [View.ld_unit_zero (S := S5000x128) origin, View.ld_unit_zero (S := S1x128) origin]
  obtain ⟨e0, e1, e2, e3, e4, e5⟩ := index_maps t
  funext j
  refine (BiasBlock.pay3_apply (iblk3 V c 0 t) (iblk3 V c 1 t) j).trans ?_
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (BiasBlock.biasAt3 j) = biasRow (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  show FloatOps.maximumf (FloatOps.addf (V c main_v65 (((cfg3.win 0).blk t).view.emb j)) (V c main_v66 (((cfg3.win 1).blk t).view.emb (BiasBlock.biasAt3 j)))) (Ideal.ofBits .f32 0x00000000#32) = _
  rw [h0, h1]
  rfl

/-- An index of the output array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v67).slice (win3_2.rect t)).set ↔ _
  rw [View.set_slice_whole, Rect.mem_set_unit]
  exact Iff.rfl

/-- Row r of the output array is written by the point r / 5000. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  obtain ⟨t, ht⟩ : ∃ t : Fin cfg3.N, t.val = (i 0).val / 5000 := ⟨⟨(i 0).val / 5000, by show _ < grid3.N; omega⟩, rfl⟩
  obtain ⟨e0, e1, e2, e3, e4, e5⟩ := index_maps t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region its output array holds the whole-array function of its two input arrays as found. -/
theorem array (c : Dev nD) : (dat3 V c).arrAt 2 cfg3.N = biased V c :=
  (dat3 V c).arrAt_eq_of_cover 2 (biased V c) (fun t _ => flushed_eq V c t) (cover)

end Cert.KernelIdeal.Region3

end
-- ==== Proof.Region4.lean ====
/-
  Region 4 (a matrix product), as one whole-array function of the arrays it finds.

  The grid has ten points; point t stages rows 5000·t … 5000·t + 4999 of the input array and the whole weight, and
  writes back rows 5000·t … 5000·t + 4999 of the output array. What it writes at local (r, c) is the sum over k of
  input (5000·t + r, k) · weight (k, c) — which is the host's dot_general of the two whole arrays read at
  (5000·t + r, c). The ten row bands tile the output array, so after the region the output array IS that dot_general.
-/
import proofs.«155429_j83219286328194_1_alg».proof.Proof.Gen.KernelIdeal.Frame
import proofs.«155429_j83219286328194_1_alg».proof.Proof.DotBlock
import proofs.«155429_j83219286328194_1_alg».proof.Proof.DotHost
import Idealize.ShloMosaic.Lib.Pipeline.Value

noncomputable section

namespace Cert.KernelIdeal.Region4

open Idealize.ShloMosaic Idealize.ShloMosaic.TcCoe Idealize.SL Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input and the output move down the rows with the point, the weight stays. -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The whole-array product of what the region finds in its two input arrays. -/
abbrev product (c : Dev nD) : Buf (Elt Ideal) ((cfg4.win 2).arr.view.loc (c.tc : Thread nD τ)) :=
  Host.dotGeneral (F := Ideal) (φ₁ := .f32) (φ₂ := .f32) Cert.ReferenceIdeal.dot_S50000x128_S128x128_S50000x128_1_0_0_1_n_n none (V c main_v67) (V c main_arg7)

/-- What point `t` writes back is its row band of the whole-array product. -/
theorem flushed_eq (c : Dev nD) (t : Fin cfg4.N) :
    (dat4 V c).flushed 2 t = ((cfg4.win 2).blk t).view.read (Elt Ideal) (product V c) := by
  show (cfg4.win 2).cut (grid4.coords t) ((dat4 V c).after 2 t) = _
  rw [after4_2]
  unfold out4_2
  rw [View.canon_unit_zero origin]
  simp only [View.ld_unit_zero (S := S5000x128) origin, View.ld_unit_zero (S := S128x128) origin]
  obtain ⟨e0, e1, e2, e3, e4, e5⟩ := index_maps t
  funext j
  refine (DotBlock.pay4_apply (iblk4 V c 0 t) (iblk4 V c 1 t) j).trans ?_
  refine Eq.trans ?_ (Cert.ReferenceIdeal.DotHost.dot128_128_apply (V c main_v67) (V c main_arg7) (((cfg4.win 2).blk t).view.emb j)).symm
  refine Finset.sum_congr rfl fun k _ => ?_
  have h0 : ((cfg4.win 0).blk t).view.emb (DotBlock.rowAt4 j k) = Cert.ReferenceIdeal.Read.lidx_main_v54 (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (DotBlock.colAt4 j k) = Cert.ReferenceIdeal.Read.ridx_main_v54 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  show FloatOps.mulf (F := Ideal) (φ := .f32) (V c main_v67 (((cfg4.win 0).blk t).view.emb (DotBlock.rowAt4 j k))) (V c main_arg7 (((cfg4.win 1).blk t).view.emb (DotBlock.colAt4 j k))) = _
  rw [h0, h1]
  rfl

/-- An index of the output array is in point `t`'s block iff each coordinate is in the block's range on its axis. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v68).slice (win4_2.rect t)).set ↔ _
  rw [View.set_slice_whole, Rect.mem_set_unit]
  exact Iff.rfl

/-- Row r of the output array is written by the point r / 5000. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : grid4.N = 10 := N_4
  obtain ⟨t, ht⟩ : ∃ t : Fin cfg4.N, t.val = (i 0).val / 5000 := ⟨⟨(i 0).val / 5000, by show _ < grid4.N; omega⟩, rfl⟩
  obtain ⟨e0, e1, e2, e3, e4, e5⟩ := index_maps t
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the region its output array holds the whole-array product of its two input arrays as found. -/
theorem array (c : Dev nD) : (dat4 V c).arrAt 2 cfg4.N = product V c :=
  (dat4 V c).arrAt_eq_of_cover 2 (product V c) (fun t _ => flushed_eq V c t) (cover)

end Cert.KernelIdeal.Region4

end
-- ==== Proof.Region5.lean ====
/-
  Region 5 (bias and rectifier), as one whole-array function of the arrays it finds.

  The grid has ten points; point t stages rows 5000·t … 5000·t + 4999 of the aggregated array and the whole [1, 128]
  bias row, and writes back the same row band of the output array: at local (r, c) the value
  aggregated (5000·t + r, c) + bias (0, c), under the maximum with zero. That is one function of the array index, and the ten row
  bands tile the output array.
-/
import proofs.«155429_j83219286328194_1_alg».proof.Proof.Gen.KernelIdeal.Frame
import proofs.«155429_j83219286328194_1_alg».proof.Proof.BiasBlock
import Idealize.ShloMosaic.Lib.Pipeline.Value

noncomputable section

namespace Cert.KernelIdeal.Region5

open Idealize.ShloMosaic Idealize.ShloMosaic.TcCoe Idealize.SL Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input and the output move down the rows with the point, the bias row stays. -/
theorem index_maps : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The bias row's entry under column `i 1` of the array. -/
abbrev biasRow (i : S50000x128.Idx) : S1x128.Idx := fun a => match a with
  | ⟨0, _⟩ => ⟨0, Nat.one_pos⟩
  | ⟨1, _⟩ => ⟨(i 1).val, (i 1).isLt⟩

/-- The whole-array function of two plain arrays: the aggregated array plus the bias row, rectified. -/
def biasedOf (A : S50000x128.Idx → EReal) (B : S1x128.Idx → EReal) : S50000x128.Idx → EReal :=
  fun i => max (A i + B (biasRow i)) (Ideal.ofBits .f32 0x00000000#32)

/-- … of the two input arrays as the region finds them. -/
abbrev biased (c : Dev nD) : Buf (Elt Ideal) ((cfg5.win 2).arr.view.loc (c.tc : Thread nD τ)) :=
  biasedOf (V c main_v81) (V c main_v82)

/-- What point `t` writes back is its row band of the whole-array function. -/
theorem flushed_eq (c : Dev nD) (t : Fin cfg5.N) :
    (dat5 V c).flushed 2 t = ((cfg5.win 2).blk t).view.read (Elt Ideal) (biased V c) := by
  show (cfg5.win 2).cut (grid5.coords t) ((dat5 V c).after 2 t) = _
  rw [after5_2]
  unfold out5_2
  rw [View.canon_unit_zero origin]
  simp only [View.ld_unit_zero (S := S5000x128) origin, View.ld_unit_zero (S := S1x128) origin]
  obtain ⟨e0, e1, e2, e3, e4, e5⟩ := index_maps t
  funext j
  refine (BiasBlock.pay5_apply (iblk5 V c 0 t) (iblk5 V c 1 t) j).trans ?_
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb (BiasBlock.biasAt5 j) = biasRow (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_2.index t (1 : Fin 2) * 128 + 1 * (j 1).val; omega
  show FloatOps.maximumf (FloatOps.addf (V c main_v81 (((cfg5.win 0).blk t).view.emb j)) (V c main_v82 (((cfg5.win 1).blk t).view.emb (BiasBlock.biasAt5 j)))) (Ideal.ofBits .f32 0x00000000#32) = _
  rw [h0, h1]
  rfl

/-- An index of the output array is in point `t`'s block iff each coordinate is in the block's range on its axis. -/
theorem mem_blk (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v83).slice (win5_2.rect t)).set ↔ _
  rw [View.set_slice_whole, Rect.mem_set_unit]
  exact Iff.rfl

/-- Row r of the output array is written by the point r / 5000. -/
theorem cover (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : grid5.N = 10 := N_5
  obtain ⟨t, ht⟩ : ∃ t : Fin cfg5.N, t.val = (i 0).val / 5000 := ⟨⟨(i 0).val / 5000, by show _ < grid5.N; omega⟩, rfl⟩
  obtain ⟨e0, e1, e2, e3, e4, e5⟩ := index_maps t
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- After the region its output array holds the whole-array function of its two input arrays as found. -/
theorem array (c : Dev nD) : (dat5 V c).arrAt 2 cfg5.N = biased V c :=
  (dat5 V c).arrAt_eq_of_cover 2 (biased V c) (fun t _ => flushed_eq V c t) (cover)

end Cert.KernelIdeal.Region5

end
-- ==== Proof.Region6.lean ====
/-
  Region 6 (a matrix product), as one whole-array function of the arrays it finds.

  The grid has ten points; point t stages rows 5000·t … 5000·t + 4999 of the input array and the whole weight, and
  writes back rows 5000·t … 5000·t + 4999 of the output array. What it writes at local (r, c) is the sum over k of
  input (5000·t + r, k) · weight (k, c) — which is the host's dot_general of the two whole arrays read at
  (5000·t + r, c). The ten row bands tile the output array, so after the region the output array IS that dot_general.
-/
import proofs.«155429_j83219286328194_1_alg».proof.Proof.Gen.KernelIdeal.Frame
import proofs.«155429_j83219286328194_1_alg».proof.Proof.DotBlock
import proofs.«155429_j83219286328194_1_alg».proof.Proof.DotHost
import Idealize.ShloMosaic.Lib.Pipeline.Value

noncomputable section

namespace Cert.KernelIdeal.Region6

open Idealize.ShloMosaic Idealize.ShloMosaic.TcCoe Idealize.SL Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input and the output move down the rows with the point, the weight stays. -/
theorem index_maps : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The whole-array product of what the region finds in its two input arrays. -/
abbrev product (c : Dev nD) : Buf (Elt Ideal) ((cfg6.win 2).arr.view.loc (c.tc : Thread nD τ)) :=
  Host.dotGeneral (F := Ideal) (φ₁ := .f32) (φ₂ := .f32) Cert.ReferenceIdeal.dot_S50000x128_S128x16_S50000x16_1_0_0_1_n_n none (V c main_v83) (V c main_arg9)

/-- What point `t` writes back is its row band of the whole-array product. -/
theorem flushed_eq (c : Dev nD) (t : Fin cfg6.N) :
    (dat6 V c).flushed 2 t = ((cfg6.win 2).blk t).view.read (Elt Ideal) (product V c) := by
  show (cfg6.win 2).cut (grid6.coords t) ((dat6 V c).after 2 t) = _
  rw [after6_2]
  unfold out6_2
  rw [View.canon_unit_zero origin]
  simp only [View.ld_unit_zero (S := S5000x128) origin, View.ld_unit_zero (S := S128x16) origin]
  obtain ⟨e0, e1, e2, e3, e4, e5⟩ := index_maps t
  funext j
  refine (DotBlock.pay6_apply (iblk6 V c 0 t) (iblk6 V c 1 t) j).trans ?_
  refine Eq.trans ?_ (Cert.ReferenceIdeal.DotHost.dot128_16_apply (V c main_v83) (V c main_arg9) (((cfg6.win 2).blk t).view.emb j)).symm
  refine Finset.sum_congr rfl fun k _ => ?_
  have h0 : ((cfg6.win 0).blk t).view.emb (DotBlock.rowAt6 j k) = Cert.ReferenceIdeal.Read.lidx_main_v90 (((cfg6.win 2).blk t).view.emb j) k := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  have h1 : ((cfg6.win 1).blk t).view.emb (DotBlock.colAt6 j k) = Cert.ReferenceIdeal.Read.ridx_main_v90 (((cfg6.win 2).blk t).view.emb j) k := by
    funext a; apply Fin.ext
    match a with
    | ⟨0, _⟩ => show win6_1.index t (0 : Fin 2) * 128 + 1 * k.val = k.val; omega
    | ⟨1, _⟩ => show win6_1.index t (1 : Fin 2) * 16 + 1 * (j 1).val = win6_2.index t (1 : Fin 2) * 16 + 1 * (j 1).val; omega
  show FloatOps.mulf (F := Ideal) (φ := .f32) (V c main_v83 (((cfg6.win 0).blk t).view.emb (DotBlock.rowAt6 j k))) (V c main_arg9 (((cfg6.win 1).blk t).view.emb (DotBlock.colAt6 j k))) = _
  rw [h0, h1]
  rfl

/-- An index of the output array is in point `t`'s block iff each coordinate is in the block's range on its axis. -/
theorem mem_blk (t : Fin cfg6.N) (i : S50000x16.Idx) :
    i ∈ ((cfg6.win 2).blk t).view.set ↔ ∀ a : Fin 2, win6_2.index t a * S5000x16.size a ≤ (i a).val ∧ (i a).val < win6_2.index t a * S5000x16.size a + S5000x16.size a := by
  show i ∈ ((View.whole main_v84).slice (win6_2.rect t)).set ↔ _
  rw [View.set_slice_whole, Rect.mem_set_unit]
  exact Iff.rfl

/-- Row r of the output array is written by the point r / 5000. -/
theorem cover (i : S50000x16.Idx) : ∃ t : Fin cfg6.N, (cfg6.win 2).flush t = true ∧ i ∈ ((cfg6.win 2).blk t).view.set := by
  have hi0 : (i 0).val < 50000 := (i 0).isLt
  have hi1 : (i 1).val < 16 := (i 1).isLt
  have hN : grid6.N = 10 := N_6
  obtain ⟨t, ht⟩ : ∃ t : Fin cfg6.N, t.val = (i 0).val / 5000 := ⟨⟨(i 0).val / 5000, by show _ < grid6.N; omega⟩, rfl⟩
  obtain ⟨e0, e1, e2, e3, e4, e5⟩ := index_maps t
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 16 ≤ (i 1).val ∧ (i 1).val < win6_2.index t (1 : Fin 2) * 16 + 16; omega

/-- After the region its output array holds the whole-array product of its two input arrays as found. -/
theorem array (c : Dev nD) : (dat6 V c).arrAt 2 cfg6.N = product V c :=
  (dat6 V c).arrAt_eq_of_cover 2 (product V c) (fun t _ => flushed_eq V c t) (cover)

end Cert.KernelIdeal.Region6

end
-- ==== Proof.Region7.lean ====
/-
  Region 7 (bias), as one whole-array function of the arrays it finds.

  The grid has ten points; point t stages rows 5000·t … 5000·t + 4999 of the aggregated array and the whole [1, 16]
  bias row, and writes back the same row band of the output array: at local (r, c) the value
  aggregated (5000·t + r, c) + bias (0, c). That is one function of the array index, and the ten row
  bands tile the output array.
-/
import proofs.«155429_j83219286328194_1_alg».proof.Proof.Gen.KernelIdeal.Frame
import proofs.«155429_j83219286328194_1_alg».proof.Proof.BiasBlock
import Idealize.ShloMosaic.Lib.Pipeline.Value

noncomputable section

namespace Cert.KernelIdeal.Region7

open Idealize.ShloMosaic Idealize.ShloMosaic.TcCoe Idealize.SL Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input and the output move down the rows with the point, the bias row stays. -/
theorem index_maps : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The bias row's entry under column `i 1` of the array. -/
abbrev biasRow (i : S50000x16.Idx) : S1x16.Idx := fun a => match a with
  | ⟨0, _⟩ => ⟨0, Nat.one_pos⟩
  | ⟨1, _⟩ => ⟨(i 1).val, (i 1).isLt⟩

/-- The whole-array function of two plain arrays: the aggregated array plus the bias row. -/
def biasedOf (A : S50000x16.Idx → EReal) (B : S1x16.Idx → EReal) : S50000x16.Idx → EReal :=
  fun i => A i + B (biasRow i)

/-- … of the two input arrays as the region finds them. -/
abbrev biased (c : Dev nD) : Buf (Elt Ideal) ((cfg7.win 2).arr.view.loc (c.tc : Thread nD τ)) :=
  biasedOf (V c main_v97) (V c main_v98)

/-- What point `t` writes back is its row band of the whole-array function. -/
theorem flushed_eq (c : Dev nD) (t : Fin cfg7.N) :
    (dat7 V c).flushed 2 t = ((cfg7.win 2).blk t).view.read (Elt Ideal) (biased V c) := by
  show (cfg7.win 2).cut (grid7.coords t) ((dat7 V c).after 2 t) = _
  rw [after7_2]
  unfold out7_2
  rw [View.canon_unit_zero origin]
  simp only [View.ld_unit_zero (S := S5000x16) origin, View.ld_unit_zero (S := S1x16) origin]
  obtain ⟨e0, e1, e2, e3, e4, e5⟩ := index_maps t
  funext j
  refine (BiasBlock.pay7_apply (iblk7 V c 0 t) (iblk7 V c 1 t) j).trans ?_
  have h0 : ((cfg7.win 0).blk t).view.emb j = ((cfg7.win 2).blk t).view.emb j := by
    funext a; apply Fin.ext
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 16 + 1 * (j 1).val = win7_2.index t (1 : Fin 2) * 16 + 1 * (j 1).val; omega
  have h1 : ((cfg7.win 1).blk t).view.emb (BiasBlock.biasAt7 j) = biasRow (((cfg7.win 2).blk t).view.emb j) := by
    funext a; apply Fin.ext
    match a with
    | ⟨0, _⟩ => show win7_1.index t (0 : Fin 2) * 1 + 1 * 0 = 0; omega
    | ⟨1, _⟩ => show win7_1.index t (1 : Fin 2) * 16 + 1 * (j 1).val = win7_2.index t (1 : Fin 2) * 16 + 1 * (j 1).val; omega
  show FloatOps.addf (F := Ideal) (φ := .f32) (V c main_v97 (((cfg7.win 0).blk t).view.emb j)) (V c main_v98 (((cfg7.win 1).blk t).view.emb (BiasBlock.biasAt7 j))) = _
  rw [h0, h1]
  rfl

/-- An index of the output array is in point `t`'s block iff each coordinate is in the block's range on its axis. -/
theorem mem_blk (t : Fin cfg7.N) (i : S50000x16.Idx) :
    i ∈ ((cfg7.win 2).blk t).view.set ↔ ∀ a : Fin 2, win7_2.index t a * S5000x16.size a ≤ (i a).val ∧ (i a).val < win7_2.index t a * S5000x16.size a + S5000x16.size a := by
  show i ∈ ((View.whole main_v99).slice (win7_2.rect t)).set ↔ _
  rw [View.set_slice_whole, Rect.mem_set_unit]
  exact Iff.rfl

/-- Row r of the output array is written by the point r / 5000. -/
theorem cover (i : S50000x16.Idx) : ∃ t : Fin cfg7.N, (cfg7.win 2).flush t = true ∧ i ∈ ((cfg7.win 2).blk t).view.set := by
  have hi0 : (i 0).val < 50000 := (i 0).isLt
  have hi1 : (i 1).val < 16 := (i 1).isLt
  have hN : grid7.N = 10 := N_7
  obtain ⟨t, ht⟩ : ∃ t : Fin cfg7.N, t.val = (i 0).val / 5000 := ⟨⟨(i 0).val / 5000, by show _ < grid7.N; omega⟩, rfl⟩
  obtain ⟨e0, e1, e2, e3, e4, e5⟩ := index_maps t
  refine ⟨t, flush7_2 t, ?_⟩
  rw [mem_blk]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 16 ≤ (i 1).val ∧ (i 1).val < win7_2.index t (1 : Fin 2) * 16 + 16; omega

/-- After the region its output array holds the whole-array function of its two input arrays as found. -/
theorem array (c : Dev nD) : (dat7 V c).arrAt 2 cfg7.N = biased V c :=
  (dat7 V c).arrAt_eq_of_cover 2 (biased V c) (fun t _ => flushed_eq V c t) (cover)

end Cert.KernelIdeal.Region7

end
-- ==== Proof.BiasHost.lean ====
/-
  The bias layers against the reference's spelling.

  The kernel hands each bias region the bias vector RESHAPED to a [1, C] row and the region adds that row to every
  row of the aggregated array; the reference broadcasts the bias vector to [1, C], then to [50000, C], and adds. Both
  read the bias at column c for the entry (r, c), so the two sums are the same array, for any aggregated array and any
  bias; in the hidden layers both then take the maximum with the real number zero.
-/
import proofs.«155429_j83219286328194_1_alg».proof.Proof.Region1
import proofs.«155429_j83219286328194_1_alg».proof.Proof.Region3
import proofs.«155429_j83219286328194_1_alg».proof.Proof.Region5
import proofs.«155429_j83219286328194_1_alg».proof.Proof.Region7
import proofs.«155429_j83219286328194_1_alg».proof.Proof.Gen.ReferenceIdeal.Read

noncomputable section

namespace Cert.KernelIdeal.BiasHost

open Idealize.ShloMosaic Idealize.ShloMosaic.TcCoe Cert.KernelIdeal Cert.KernelIdeal.Facts₀ Cert.ReferenceIdeal.Read

/-- Layer 1: adding the reshaped bias row and rectifying is the host's add of the twice-broadcast bias and its
    maximum with the zero splat. -/
theorem layer1 (A : S50000x128.Idx → EReal) (b : S128.Idx → EReal) :
    Region1.biasedOf A (shapeCast S1x128 b shapeCasts_S128_S1x128)
      = maximumf (F := Ideal) (φ := .f32) (addf (F := Ideal) (φ := .f32) A (val_main_v51 (F := Ideal) b)) (val_main_call2_v0 (F := Ideal)) := by
  funext i
  show max (A i + shapeCast S1x128 b shapeCasts_S128_S1x128 (Region1.biasRow i)) (Ideal.ofBits .f32 0x00000000#32)
     = FloatOps.maximumf (F := Ideal) (φ := .f32) (FloatOps.addf (F := Ideal) (φ := .f32) (A i) (val_main_v51 (F := Ideal) b i)) (val_main_call2_v0 (F := Ideal) i)
  rw [val_main_v51_apply, val_main_v50_apply, val_main_call2_v0_apply, val_main_call2_cst_apply,
    shapeCast_apply b shapeCasts_S128_S1x128 (Region1.biasRow i) (idx_main_v50 (idx_main_v51 i)) (by
      rw [Shape.rowMajor_val_one, Shape.rowMajor_val_two]; show (i 1).val = 0 * 128 + (i 1).val; omega)]
  rfl

/-- Layer 2: adding the reshaped bias row and rectifying is the host's add of the twice-broadcast bias and its
    maximum with the zero splat. -/
theorem layer2 (A : S50000x128.Idx → EReal) (b : S128.Idx → EReal) :
    Region3.biasedOf A (shapeCast S1x128 b shapeCasts_S128_S1x128)
      = maximumf (F := Ideal) (φ := .f32) (addf (F := Ideal) (φ := .f32) A (val_main_v69 (F := Ideal) b)) (val_main_call3_v0 (F := Ideal)) := by
  funext i
  show max (A i + shapeCast S1x128 b shapeCasts_S128_S1x128 (Region3.biasRow i)) (Ideal.ofBits .f32 0x00000000#32)
     = FloatOps.maximumf (F := Ideal) (φ := .f32) (FloatOps.addf (F := Ideal) (φ := .f32) (A i) (val_main_v69 (F := Ideal) b i)) (val_main_call3_v0 (F := Ideal) i)
  rw [val_main_v69_apply, val_main_v68_apply, val_main_call3_v0_apply, val_main_call3_cst_apply,
    shapeCast_apply b shapeCasts_S128_S1x128 (Region3.biasRow i) (idx_main_v68 (idx_main_v69 i)) (by
      rw [Shape.rowMajor_val_one, Shape.rowMajor_val_two]; show (i 1).val = 0 * 128 + (i 1).val; omega)]
  rfl

/-- Layer 3: adding the reshaped bias row and rectifying is the host's add of the twice-broadcast bias and its
    maximum with the zero splat. -/
theorem layer3 (A : S50000x128.Idx → EReal) (b : S128.Idx → EReal) :
    Region5.biasedOf A (shapeCast S1x128 b shapeCasts_S128_S1x128)
      = maximumf (F := Ideal) (φ := .f32) (addf (F := Ideal) (φ := .f32) A (val_main_v87 (F := Ideal) b)) (val_main_call4_v0 (F := Ideal)) := by
  funext i
  show max (A i + shapeCast S1x128 b shapeCasts_S128_S1x128 (Region5.biasRow i)) (Ideal.ofBits .f32 0x00000000#32)
     = FloatOps.maximumf (F := Ideal) (φ := .f32) (FloatOps.addf (F := Ideal) (φ := .f32) (A i) (val_main_v87 (F := Ideal) b i)) (val_main_call4_v0 (F := Ideal) i)
  rw [val_main_v87_apply, val_main_v86_apply, val_main_call4_v0_apply, val_main_call4_cst_apply,
    shapeCast_apply b shapeCasts_S128_S1x128 (Region5.biasRow i) (idx_main_v86 (idx_main_v87 i)) (by
      rw [Shape.rowMajor_val_one, Shape.rowMajor_val_two]; show (i 1).val = 0 * 128 + (i 1).val; omega)]
  rfl

/-- Layer 4: adding the reshaped bias row is the host's add of the twice-broadcast bias (no rectifier). -/
theorem layer4 (A : S50000x16.Idx → EReal) (b : S16.Idx → EReal) :
    Region7.biasedOf A (shapeCast S1x16 b shapeCasts_S16_S1x16)
      = addf (F := Ideal) (φ := .f32) A (val_main_v105 (F := Ideal) b) := by
  funext i
  show A i + shapeCast S1x16 b shapeCasts_S16_S1x16 (Region7.biasRow i)
     = FloatOps.addf (F := Ideal) (φ := .f32) (A i) (val_main_v105 (F := Ideal) b i)
  rw [val_main_v105_apply, val_main_v104_apply,
    shapeCast_apply b shapeCasts_S16_S1x16 (Region7.biasRow i) (idx_main_v104 (idx_main_v105 i)) (by
      rw [Shape.rowMajor_val_one, Shape.rowMajor_val_two]; show (i 1).val = 0 * 16 + (i 1).val; omega)]
  rfl

end Cert.KernelIdeal.BiasHost

end
-- ==== Proof.Carry.lean ====
/-
  What rides through @main unchanged.

  Notation: a0 … a10 are the eleven argument arrays at launch. The five stretches before the first region compute the
  self-looped source and destination lists and the symmetric edge norm — the reference's stages v3, v7 and v35 of the
  arguments — and write no argument. From then on a region changes only its own output array and a host stretch only
  the buffers its operations write, and none of the lists, the norm, or a later layer's weight or bias is among
  those: at every later boundary they are what they were.
-/
import proofs.«155429_j83219286328194_1_alg».proof.Proof.Gen.KernelIdeal.Frame
import proofs.«155429_j83219286328194_1_alg».proof.Proof.Gen.ReferenceIdeal.Read
import Idealize.ShloMosaic.Lib.StableHlo.Run

noncomputable section

namespace Cert.KernelIdeal.Carry

open Idealize.ShloMosaic Idealize.ShloMosaic.TcCoe Idealize.ShloMosaic.StableHlo Idealize.SL Idealize.SL.Sem Cert.KernelIdeal Cert.KernelIdeal.Gen Cert.ReferenceIdeal.Read

set_option maxRecDepth 16384
set_option maxHeartbeats 4000000

variable (m : (ℓ : Loc nD τ sig) → Buf (Elt Ideal) ℓ) (ρ : Dev nD → PrngReg) (c : Dev nD)
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)

/-- A buffer that no operation of the stretch writes keeps its contents (the writes of each operation compared with the
    buffer, one at a time). -/
macro "keep_host" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## The lists and the norm before the first region -/

/-! ### The five opening stretches, each over an arbitrary valuation `W` at its entry -/

section Stretches
variable (W : Valuation τ sig (Elt Ideal)) (x1 : (⟨Cert.ReferenceIdeal.S2x800000, .i32⟩ : BufTy).Contents (Elt Ideal)) (x2 : (⟨Cert.ReferenceIdeal.S800000, .f32⟩ : BufTy).Contents (Elt Ideal))

/-- First stretch: the self-looped source list … -/
theorem s0_src : StableHlo.after hostOps0 W (Proc.devRef .tc main_v3) = val_main_v3 (F := Ideal) (W (Proc.devRef .tc main_arg1)) := by
  dsimp only [hostOps0]; after_results_simp <;> rfl
/-- … the self-looped destination list … -/
theorem s0_dst : StableHlo.after hostOps0 W (Proc.devRef .tc main_v7) = val_main_v7 (F := Ideal) (W (Proc.devRef .tc main_arg1)) := by
  dsimp only [hostOps0]; after_results_simp <;> rfl
/-- … the edge weights with the self-loop weight 2 appended … -/
theorem s0_wts : StableHlo.after hostOps0 W (Proc.devRef .tc main_v9) = val_main_v9 (F := Ideal) (W (Proc.devRef .tc main_arg2)) := by
  dsimp only [hostOps0]; after_results_simp <;> rfl
/-- … the weighted in-degree … -/
theorem s0_deg : StableHlo.after hostOps0 W (Proc.devRef .tc main_v12) = val_main_v12 (F := Ideal) (W (Proc.devRef .tc main_arg1)) (W (Proc.devRef .tc main_arg2)) := by
  dsimp only [hostOps0]; after_results_simp <;> rfl
/-- … and its two positivity masks, and the constant one. -/
theorem s0_pos : StableHlo.after hostOps0 W (Proc.devRef .tc main_v14) = val_main_v14 (F := Ideal) (W (Proc.devRef .tc main_arg1)) (W (Proc.devRef .tc main_arg2)) := by
  dsimp only [hostOps0]; after_results_simp <;> rfl
theorem s0_pos' : StableHlo.after hostOps0 W (Proc.devRef .tc main_v16) = val_main_v16 (F := Ideal) (W (Proc.devRef .tc main_arg1)) (W (Proc.devRef .tc main_arg2)) := by
  dsimp only [hostOps0]; after_results_simp <;> rfl
theorem s0_one : StableHlo.after hostOps0 W (Proc.devRef .tc main_cst_3) = val_main_cst_3 (F := Ideal) := by
  dsimp only [hostOps0]; after_results_simp <;> rfl

/-- Second stretch: the degree where positive, one elsewhere (whatever the mask, the degree and the constant are). -/
theorem s1_safe (A : (⟨S50000, .i1⟩ : BufTy).Contents (Elt Ideal)) (B : (⟨S50000, .f32⟩ : BufTy).Contents (Elt Ideal)) (C : (⟨S_, .f32⟩ : BufTy).Contents (Elt Ideal))
    (h16 : W (Proc.devRef .tc main_v16) = A) (h12 : W (Proc.devRef .tc main_v12) = B) (hc : W (Proc.devRef .tc main_cst_3) = C) :
    StableHlo.after hostOps0_1 W (Proc.devRef .tc main_v17) = select A B (broadcastInDim S50000 ![] bcast_S_S50000 (id C)) := by
  dsimp only [hostOps0_1]; after_results_simp
  rw [h16, h12, hc]; rfl

/-- Third stretch: its reciprocal square root, and the constant zero. -/
theorem s2_rsqrt (h17 : W (Proc.devRef .tc main_v17) = val_main_v17 (F := Ideal) x1 x2) :
    StableHlo.after hostOps0_2 W (Proc.devRef .tc main_v18) = val_main_v18 (F := Ideal) x1 x2 := by
  dsimp only [hostOps0_2]; after_results_simp
  rw [h17]; rfl
theorem s2_zero : StableHlo.after hostOps0_2 W (Proc.devRef .tc main_cst_4) = val_main_cst_4 (F := Ideal) := by
  dsimp only [hostOps0_2]; after_results_simp <;> rfl

/-- Fourth stretch: that where the degree is positive, zero elsewhere (whatever the mask, the root and the constant are). -/
theorem s3_dinv (A : (⟨S50000, .i1⟩ : BufTy).Contents (Elt Ideal)) (B : (⟨S50000, .f32⟩ : BufTy).Contents (Elt Ideal)) (C : (⟨S_, .f32⟩ : BufTy).Contents (Elt Ideal))
    (h14 : W (Proc.devRef .tc main_v14) = A) (h18 : W (Proc.devRef .tc main_v18) = B) (hc : W (Proc.devRef .tc main_cst_4) = C) :
    StableHlo.after hostOps0_3 W (Proc.devRef .tc main_v19) = select A B (broadcastInDim S50000 ![] bcast_S_S50000 (id C)) := by
  dsimp only [hostOps0_3]; after_results_simp
  rw [h14, h18, hc]; rfl

/-- Fifth stretch: the edge norm, the inverse root degrees gathered at source and destination around the edge weight. -/
theorem s4_norm (h3 : W (Proc.devRef .tc main_v3) = val_main_v3 (F := Ideal) x1) (h7 : W (Proc.devRef .tc main_v7) = val_main_v7 (F := Ideal) x1)
    (h19 : W (Proc.devRef .tc main_v19) = val_main_v19 (F := Ideal) x1 x2) (h9 : W (Proc.devRef .tc main_v9) = val_main_v9 (F := Ideal) x2) :
    StableHlo.after hostOps0_4 W (Proc.devRef .tc main_v35) = val_main_v35 (F := Ideal) x1 x2 := by
  dsimp only [hostOps0_4]; after_results_simp
  rw [h19, h9, h3, h7]; rfl

end Stretches

/-! ### … chained from the launch memory -/

theorem src1 : W1 m ρ c (Proc.devRef .tc main_v3) = val_main_v3 (F := Ideal) (a1 m c) := s0_src (W0 m ρ c)
theorem dst1 : W1 m ρ c (Proc.devRef .tc main_v7) = val_main_v7 (F := Ideal) (a1 m c) := s0_dst (W0 m ρ c)
theorem wts1 : W1 m ρ c (Proc.devRef .tc main_v9) = val_main_v9 (F := Ideal) (a2 m c) := s0_wts (W0 m ρ c)
theorem pos1 : W1 m ρ c (Proc.devRef .tc main_v14) = val_main_v14 (F := Ideal) (a1 m c) (a2 m c) := s0_pos (W0 m ρ c)

theorem src2 : W2 m ρ c (Proc.devRef .tc main_v3) = val_main_v3 (F := Ideal) (a1 m c) := (show StableHlo.after hostOps0_1 (W1 m ρ c) (Proc.devRef .tc main_v3) = W1 m ρ c (Proc.devRef .tc main_v3) by keep_host hostOps0_1).trans (src1 m ρ c)
theorem dst2 : W2 m ρ c (Proc.devRef .tc main_v7) = val_main_v7 (F := Ideal) (a1 m c) := (show StableHlo.after hostOps0_1 (W1 m ρ c) (Proc.devRef .tc main_v7) = W1 m ρ c (Proc.devRef .tc main_v7) by keep_host hostOps0_1).trans (dst1 m ρ c)
theorem wts2 : W2 m ρ c (Proc.devRef .tc main_v9) = val_main_v9 (F := Ideal) (a2 m c) := (show StableHlo.after hostOps0_1 (W1 m ρ c) (Proc.devRef .tc main_v9) = W1 m ρ c (Proc.devRef .tc main_v9) by keep_host hostOps0_1).trans (wts1 m ρ c)
theorem pos2 : W2 m ρ c (Proc.devRef .tc main_v14) = val_main_v14 (F := Ideal) (a1 m c) (a2 m c) := (show StableHlo.after hostOps0_1 (W1 m ρ c) (Proc.devRef .tc main_v14) = W1 m ρ c (Proc.devRef .tc main_v14) by keep_host hostOps0_1).trans (pos1 m ρ c)
theorem safe2 : W2 m ρ c (Proc.devRef .tc main_v17) = val_main_v17 (F := Ideal) (a1 m c) (a2 m c) :=
  (s1_safe (W1 m ρ c) _ _ _ (s0_pos' (W0 m ρ c)) (s0_deg (W0 m ρ c)) (s0_one (W0 m ρ c))).trans rfl

theorem src3 : W3 m ρ c (Proc.devRef .tc main_v3) = val_main_v3 (F := Ideal) (a1 m c) := (show StableHlo.after hostOps0_2 (W2 m ρ c) (Proc.devRef .tc main_v3) = W2 m ρ c (Proc.devRef .tc main_v3) by keep_host hostOps0_2).trans (src2 m ρ c)
theorem dst3 : W3 m ρ c (Proc.devRef .tc main_v7) = val_main_v7 (F := Ideal) (a1 m c) := (show StableHlo.after hostOps0_2 (W2 m ρ c) (Proc.devRef .tc main_v7) = W2 m ρ c (Proc.devRef .tc main_v7) by keep_host hostOps0_2).trans (dst2 m ρ c)
theorem wts3 : W3 m ρ c (Proc.devRef .tc main_v9) = val_main_v9 (F := Ideal) (a2 m c) := (show StableHlo.after hostOps0_2 (W2 m ρ c) (Proc.devRef .tc main_v9) = W2 m ρ c (Proc.devRef .tc main_v9) by keep_host hostOps0_2).trans (wts2 m ρ c)
theorem pos3 : W3 m ρ c (Proc.devRef .tc main_v14) = val_main_v14 (F := Ideal) (a1 m c) (a2 m c) := (show StableHlo.after hostOps0_2 (W2 m ρ c) (Proc.devRef .tc main_v14) = W2 m ρ c (Proc.devRef .tc main_v14) by keep_host hostOps0_2).trans (pos2 m ρ c)
theorem rsqrt3 : W3 m ρ c (Proc.devRef .tc main_v18) = val_main_v18 (F := Ideal) (a1 m c) (a2 m c) := s2_rsqrt (W2 m ρ c) (a1 m c) (a2 m c) (safe2 m ρ c)

theorem src4 : W4 m ρ c (Proc.devRef .tc main_v3) = val_main_v3 (F := Ideal) (a1 m c) := (show StableHlo.after hostOps0_3 (W3 m ρ c) (Proc.devRef .tc main_v3) = W3 m ρ c (Proc.devRef .tc main_v3) by keep_host hostOps0_3).trans (src3 m ρ c)
theorem dst4 : W4 m ρ c (Proc.devRef .tc main_v7) = val_main_v7 (F := Ideal) (a1 m c) := (show StableHlo.after hostOps0_3 (W3 m ρ c) (Proc.devRef .tc main_v7) = W3 m ρ c (Proc.devRef .tc main_v7) by keep_host hostOps0_3).trans (dst3 m ρ c)
theorem wts4 : W4 m ρ c (Proc.devRef .tc main_v9) = val_main_v9 (F := Ideal) (a2 m c) := (show StableHlo.after hostOps0_3 (W3 m ρ c) (Proc.devRef .tc main_v9) = W3 m ρ c (Proc.devRef .tc main_v9) by keep_host hostOps0_3).trans (wts3 m ρ c)
theorem dinv4 : W4 m ρ c (Proc.devRef .tc main_v19) = val_main_v19 (F := Ideal) (a1 m c) (a2 m c) :=
  (s3_dinv (W3 m ρ c) _ _ _ (pos3 m ρ c) (rsqrt3 m ρ c) (s2_zero (W2 m ρ c))).trans rfl

theorem src5 : W5 m ρ c (Proc.devRef .tc main_v3) = val_main_v3 (F := Ideal) (a1 m c) := (show StableHlo.after hostOps0_4 (W4 m ρ c) (Proc.devRef .tc main_v3) = W4 m ρ c (Proc.devRef .tc main_v3) by keep_host hostOps0_4).trans (src4 m ρ c)
theorem dst5 : W5 m ρ c (Proc.devRef .tc main_v7) = val_main_v7 (F := Ideal) (a1 m c) := (show StableHlo.after hostOps0_4 (W4 m ρ c) (Proc.devRef .tc main_v7) = W4 m ρ c (Proc.devRef .tc main_v7) by keep_host hostOps0_4).trans (dst4 m ρ c)
theorem nrm5 : W5 m ρ c (Proc.devRef .tc main_v35) = val_main_v35 (F := Ideal) (a1 m c) (a2 m c) :=
  s4_norm (W4 m ρ c) (a1 m c) (a2 m c) (src4 m ρ c) (dst4 m ρ c) (dinv4 m ρ c) (wts4 m ρ c)

/-! ## The boundary invariant -/

/-- At a boundary's contents `W`: the source and destination lists and the edge norm are the reference's stages of the
    arguments, and each later layer's weight and bias is still the launch array. -/
structure Live (W : Valuation τ sig (Elt Ideal)) : Prop where
  src : W (Proc.devRef .tc main_v3) = val_main_v3 (F := Ideal) (a1 m c)
  dst : W (Proc.devRef .tc main_v7) = val_main_v7 (F := Ideal) (a1 m c)
  nrm : W (Proc.devRef .tc main_v35) = val_main_v35 (F := Ideal) (a1 m c) (a2 m c)
  b4 : W (Proc.devRef .tc main_arg4) = (a4 m c)
  w5 : W (Proc.devRef .tc main_arg5) = (a5 m c)
  b6 : W (Proc.devRef .tc main_arg6) = (a6 m c)
  w7 : W (Proc.devRef .tc main_arg7) = (a7 m c)
  b8 : W (Proc.devRef .tc main_arg8) = (a8 m c)
  w9 : W (Proc.devRef .tc main_arg9) = (a9 m c)
  b10 : W (Proc.devRef .tc main_arg10) = (a10 m c)

/-- Before the first region. -/
theorem live5 : Live m c (W5 m ρ c) where
  src := src5 m ρ c
  dst := dst5 m ρ c
  nrm := nrm5 m ρ c
  b4 := ((show StableHlo.after hostOps0_4 (W4 m ρ c) (Proc.devRef .tc main_arg4) = W4 m ρ c (Proc.devRef .tc main_arg4) by keep_host hostOps0_4).trans
    ((show StableHlo.after hostOps0_3 (W3 m ρ c) (Proc.devRef .tc main_arg4) = W3 m ρ c (Proc.devRef .tc main_arg4) by keep_host hostOps0_3).trans
    ((show StableHlo.after hostOps0_2 (W2 m ρ c) (Proc.devRef .tc main_arg4) = W2 m ρ c (Proc.devRef .tc main_arg4) by keep_host hostOps0_2).trans
    ((show StableHlo.after hostOps0_1 (W1 m ρ c) (Proc.devRef .tc main_arg4) = W1 m ρ c (Proc.devRef .tc main_arg4) by keep_host hostOps0_1).trans
    ((show StableHlo.after hostOps0 (W0 m ρ c) (Proc.devRef .tc main_arg4) = W0 m ρ c (Proc.devRef .tc main_arg4) by keep_host hostOps0).trans rfl)))))
  w5 := ((show StableHlo.after hostOps0_4 (W4 m ρ c) (Proc.devRef .tc main_arg5) = W4 m ρ c (Proc.devRef .tc main_arg5) by keep_host hostOps0_4).trans
    ((show StableHlo.after hostOps0_3 (W3 m ρ c) (Proc.devRef .tc main_arg5) = W3 m ρ c (Proc.devRef .tc main_arg5) by keep_host hostOps0_3).trans
    ((show StableHlo.after hostOps0_2 (W2 m ρ c) (Proc.devRef .tc main_arg5) = W2 m ρ c (Proc.devRef .tc main_arg5) by keep_host hostOps0_2).trans
    ((show StableHlo.after hostOps0_1 (W1 m ρ c) (Proc.devRef .tc main_arg5) = W1 m ρ c (Proc.devRef .tc main_arg5) by keep_host hostOps0_1).trans
    ((show StableHlo.after hostOps0 (W0 m ρ c) (Proc.devRef .tc main_arg5) = W0 m ρ c (Proc.devRef .tc main_arg5) by keep_host hostOps0).trans rfl)))))
  b6 := ((show StableHlo.after hostOps0_4 (W4 m ρ c) (Proc.devRef .tc main_arg6) = W4 m ρ c (Proc.devRef .tc main_arg6) by keep_host hostOps0_4).trans
    ((show StableHlo.after hostOps0_3 (W3 m ρ c) (Proc.devRef .tc main_arg6) = W3 m ρ c (Proc.devRef .tc main_arg6) by keep_host hostOps0_3).trans
    ((show StableHlo.after hostOps0_2 (W2 m ρ c) (Proc.devRef .tc main_arg6) = W2 m ρ c (Proc.devRef .tc main_arg6) by keep_host hostOps0_2).trans
    ((show StableHlo.after hostOps0_1 (W1 m ρ c) (Proc.devRef .tc main_arg6) = W1 m ρ c (Proc.devRef .tc main_arg6) by keep_host hostOps0_1).trans
    ((show StableHlo.after hostOps0 (W0 m ρ c) (Proc.devRef .tc main_arg6) = W0 m ρ c (Proc.devRef .tc main_arg6) by keep_host hostOps0).trans rfl)))))
  w7 := ((show StableHlo.after hostOps0_4 (W4 m ρ c) (Proc.devRef .tc main_arg7) = W4 m ρ c (Proc.devRef .tc main_arg7) by keep_host hostOps0_4).trans
    ((show StableHlo.after hostOps0_3 (W3 m ρ c) (Proc.devRef .tc main_arg7) = W3 m ρ c (Proc.devRef .tc main_arg7) by keep_host hostOps0_3).trans
    ((show StableHlo.after hostOps0_2 (W2 m ρ c) (Proc.devRef .tc main_arg7) = W2 m ρ c (Proc.devRef .tc main_arg7) by keep_host hostOps0_2).trans
    ((show StableHlo.after hostOps0_1 (W1 m ρ c) (Proc.devRef .tc main_arg7) = W1 m ρ c (Proc.devRef .tc main_arg7) by keep_host hostOps0_1).trans
    ((show StableHlo.after hostOps0 (W0 m ρ c) (Proc.devRef .tc main_arg7) = W0 m ρ c (Proc.devRef .tc main_arg7) by keep_host hostOps0).trans rfl)))))
  b8 := ((show StableHlo.after hostOps0_4 (W4 m ρ c) (Proc.devRef .tc main_arg8) = W4 m ρ c (Proc.devRef .tc main_arg8) by keep_host hostOps0_4).trans
    ((show StableHlo.after hostOps0_3 (W3 m ρ c) (Proc.devRef .tc main_arg8) = W3 m ρ c (Proc.devRef .tc main_arg8) by keep_host hostOps0_3).trans
    ((show StableHlo.after hostOps0_2 (W2 m ρ c) (Proc.devRef .tc main_arg8) = W2 m ρ c (Proc.devRef .tc main_arg8) by keep_host hostOps0_2).trans
    ((show StableHlo.after hostOps0_1 (W1 m ρ c) (Proc.devRef .tc main_arg8) = W1 m ρ c (Proc.devRef .tc main_arg8) by keep_host hostOps0_1).trans
    ((show StableHlo.after hostOps0 (W0 m ρ c) (Proc.devRef .tc main_arg8) = W0 m ρ c (Proc.devRef .tc main_arg8) by keep_host hostOps0).trans rfl)))))
  w9 := ((show StableHlo.after hostOps0_4 (W4 m ρ c) (Proc.devRef .tc main_arg9) = W4 m ρ c (Proc.devRef .tc main_arg9) by keep_host hostOps0_4).trans
    ((show StableHlo.after hostOps0_3 (W3 m ρ c) (Proc.devRef .tc main_arg9) = W3 m ρ c (Proc.devRef .tc main_arg9) by keep_host hostOps0_3).trans
    ((show StableHlo.after hostOps0_2 (W2 m ρ c) (Proc.devRef .tc main_arg9) = W2 m ρ c (Proc.devRef .tc main_arg9) by keep_host hostOps0_2).trans
    ((show StableHlo.after hostOps0_1 (W1 m ρ c) (Proc.devRef .tc main_arg9) = W1 m ρ c (Proc.devRef .tc main_arg9) by keep_host hostOps0_1).trans
    ((show StableHlo.after hostOps0 (W0 m ρ c) (Proc.devRef .tc main_arg9) = W0 m ρ c (Proc.devRef .tc main_arg9) by keep_host hostOps0).trans rfl)))))
  b10 := ((show StableHlo.after hostOps0_4 (W4 m ρ c) (Proc.devRef .tc main_arg10) = W4 m ρ c (Proc.devRef .tc main_arg10) by keep_host hostOps0_4).trans
    ((show StableHlo.after hostOps0_3 (W3 m ρ c) (Proc.devRef .tc main_arg10) = W3 m ρ c (Proc.devRef .tc main_arg10) by keep_host hostOps0_3).trans
    ((show StableHlo.after hostOps0_2 (W2 m ρ c) (Proc.devRef .tc main_arg10) = W2 m ρ c (Proc.devRef .tc main_arg10) by keep_host hostOps0_2).trans
    ((show StableHlo.after hostOps0_1 (W1 m ρ c) (Proc.devRef .tc main_arg10) = W1 m ρ c (Proc.devRef .tc main_arg10) by keep_host hostOps0_1).trans
    ((show StableHlo.after hostOps0 (W0 m ρ c) (Proc.devRef .tc main_arg10) = W0 m ρ c (Proc.devRef .tc main_arg10) by keep_host hostOps0).trans rfl)))))
theorem arg0_5 : W5 m ρ c (Proc.devRef .tc main_arg0) = (a0 m c) :=
  ((show StableHlo.after hostOps0_4 (W4 m ρ c) (Proc.devRef .tc main_arg0) = W4 m ρ c (Proc.devRef .tc main_arg0) by keep_host hostOps0_4).trans
    ((show StableHlo.after hostOps0_3 (W3 m ρ c) (Proc.devRef .tc main_arg0) = W3 m ρ c (Proc.devRef .tc main_arg0) by keep_host hostOps0_3).trans
    ((show StableHlo.after hostOps0_2 (W2 m ρ c) (Proc.devRef .tc main_arg0) = W2 m ρ c (Proc.devRef .tc main_arg0) by keep_host hostOps0_2).trans
    ((show StableHlo.after hostOps0_1 (W1 m ρ c) (Proc.devRef .tc main_arg0) = W1 m ρ c (Proc.devRef .tc main_arg0) by keep_host hostOps0_1).trans
    ((show StableHlo.after hostOps0 (W0 m ρ c) (Proc.devRef .tc main_arg0) = W0 m ρ c (Proc.devRef .tc main_arg0) by keep_host hostOps0).trans rfl)))))
theorem arg3_5 : W5 m ρ c (Proc.devRef .tc main_arg3) = (a3 m c) :=
  ((show StableHlo.after hostOps0_4 (W4 m ρ c) (Proc.devRef .tc main_arg3) = W4 m ρ c (Proc.devRef .tc main_arg3) by keep_host hostOps0_4).trans
    ((show StableHlo.after hostOps0_3 (W3 m ρ c) (Proc.devRef .tc main_arg3) = W3 m ρ c (Proc.devRef .tc main_arg3) by keep_host hostOps0_3).trans
    ((show StableHlo.after hostOps0_2 (W2 m ρ c) (Proc.devRef .tc main_arg3) = W2 m ρ c (Proc.devRef .tc main_arg3) by keep_host hostOps0_2).trans
    ((show StableHlo.after hostOps0_1 (W1 m ρ c) (Proc.devRef .tc main_arg3) = W1 m ρ c (Proc.devRef .tc main_arg3) by keep_host hostOps0_1).trans
    ((show StableHlo.after hostOps0 (W0 m ρ c) (Proc.devRef .tc main_arg3) = W0 m ρ c (Proc.devRef .tc main_arg3) by keep_host hostOps0).trans rfl)))))

/-- Across region 0: none of these buffers is one of its output arrays. -/
theorem live6 : Live m c (W6 m ρ c) where
  src := (W6_of_ne m ρ c main_v3 (by decide)).trans (live5 m ρ c).src
  dst := (W6_of_ne m ρ c main_v7 (by decide)).trans (live5 m ρ c).dst
  nrm := (W6_of_ne m ρ c main_v35 (by decide)).trans (live5 m ρ c).nrm
  b4 := (W6_of_ne m ρ c main_arg4 (by decide)).trans (live5 m ρ c).b4
  w5 := (W6_of_ne m ρ c main_arg5 (by decide)).trans (live5 m ρ c).w5
  b6 := (W6_of_ne m ρ c main_arg6 (by decide)).trans (live5 m ρ c).b6
  w7 := (W6_of_ne m ρ c main_arg7 (by decide)).trans (live5 m ρ c).w7
  b8 := (W6_of_ne m ρ c main_arg8 (by decide)).trans (live5 m ρ c).b8
  w9 := (W6_of_ne m ρ c main_arg9 (by decide)).trans (live5 m ρ c).w9
  b10 := (W6_of_ne m ρ c main_arg10 (by decide)).trans (live5 m ρ c).b10

/-- Across the host stretch `hostOps1`: it writes none of these buffers. -/
theorem live7 : Live m c (W7 m ρ c) where
  src := (show StableHlo.after hostOps1 (W6 m ρ c) (Proc.devRef .tc main_v3) = W6 m ρ c (Proc.devRef .tc main_v3) by keep_host hostOps1).trans (live6 m ρ c).src
  dst := (show StableHlo.after hostOps1 (W6 m ρ c) (Proc.devRef .tc main_v7) = W6 m ρ c (Proc.devRef .tc main_v7) by keep_host hostOps1).trans (live6 m ρ c).dst
  nrm := (show StableHlo.after hostOps1 (W6 m ρ c) (Proc.devRef .tc main_v35) = W6 m ρ c (Proc.devRef .tc main_v35) by keep_host hostOps1).trans (live6 m ρ c).nrm
  b4 := (show StableHlo.after hostOps1 (W6 m ρ c) (Proc.devRef .tc main_arg4) = W6 m ρ c (Proc.devRef .tc main_arg4) by keep_host hostOps1).trans (live6 m ρ c).b4
  w5 := (show StableHlo.after hostOps1 (W6 m ρ c) (Proc.devRef .tc main_arg5) = W6 m ρ c (Proc.devRef .tc main_arg5) by keep_host hostOps1).trans (live6 m ρ c).w5
  b6 := (show StableHlo.after hostOps1 (W6 m ρ c) (Proc.devRef .tc main_arg6) = W6 m ρ c (Proc.devRef .tc main_arg6) by keep_host hostOps1).trans (live6 m ρ c).b6
  w7 := (show StableHlo.after hostOps1 (W6 m ρ c) (Proc.devRef .tc main_arg7) = W6 m ρ c (Proc.devRef .tc main_arg7) by keep_host hostOps1).trans (live6 m ρ c).w7
  b8 := (show StableHlo.after hostOps1 (W6 m ρ c) (Proc.devRef .tc main_arg8) = W6 m ρ c (Proc.devRef .tc main_arg8) by keep_host hostOps1).trans (live6 m ρ c).b8
  w9 := (show StableHlo.after hostOps1 (W6 m ρ c) (Proc.devRef .tc main_arg9) = W6 m ρ c (Proc.devRef .tc main_arg9) by keep_host hostOps1).trans (live6 m ρ c).w9
  b10 := (show StableHlo.after hostOps1 (W6 m ρ c) (Proc.devRef .tc main_arg10) = W6 m ρ c (Proc.devRef .tc main_arg10) by keep_host hostOps1).trans (live6 m ρ c).b10

/-- Across region 1: none of these buffers is one of its output arrays. -/
theorem live8 : Live m c (W8 m ρ c) where
  src := (W8_of_ne m ρ c main_v3 (by decide)).trans (live7 m ρ c).src
  dst := (W8_of_ne m ρ c main_v7 (by decide)).trans (live7 m ρ c).dst
  nrm := (W8_of_ne m ρ c main_v35 (by decide)).trans (live7 m ρ c).nrm
  b4 := (W8_of_ne m ρ c main_arg4 (by decide)).trans (live7 m ρ c).b4
  w5 := (W8_of_ne m ρ c main_arg5 (by decide)).trans (live7 m ρ c).w5
  b6 := (W8_of_ne m ρ c main_arg6 (by decide)).trans (live7 m ρ c).b6
  w7 := (W8_of_ne m ρ c main_arg7 (by decide)).trans (live7 m ρ c).w7
  b8 := (W8_of_ne m ρ c main_arg8 (by decide)).trans (live7 m ρ c).b8
  w9 := (W8_of_ne m ρ c main_arg9 (by decide)).trans (live7 m ρ c).w9
  b10 := (W8_of_ne m ρ c main_arg10 (by decide)).trans (live7 m ρ c).b10

/-- Across region 2: none of these buffers is one of its output arrays. -/
theorem live9 : Live m c (W9 m ρ c) where
  src := (W9_of_ne m ρ c main_v3 (by decide)).trans (live8 m ρ c).src
  dst := (W9_of_ne m ρ c main_v7 (by decide)).trans (live8 m ρ c).dst
  nrm := (W9_of_ne m ρ c main_v35 (by decide)).trans (live8 m ρ c).nrm
  b4 := (W9_of_ne m ρ c main_arg4 (by decide)).trans (live8 m ρ c).b4
  w5 := ((W9_arr m ρ c 1).trans (((dat2 (V8 m ρ) c).arrAt_in 1 rfl _).trans (A_eq2 (V8 m ρ) c 1))).trans (live8 m ρ c).w5
  b6 := (W9_of_ne m ρ c main_arg6 (by decide)).trans (live8 m ρ c).b6
  w7 := (W9_of_ne m ρ c main_arg7 (by decide)).trans (live8 m ρ c).w7
  b8 := (W9_of_ne m ρ c main_arg8 (by decide)).trans (live8 m ρ c).b8
  w9 := (W9_of_ne m ρ c main_arg9 (by decide)).trans (live8 m ρ c).w9
  b10 := (W9_of_ne m ρ c main_arg10 (by decide)).trans (live8 m ρ c).b10

/-- Across the host stretch `hostOps3`: it writes none of these buffers. -/
theorem live10 : Live m c (W10 m ρ c) where
  src := (show StableHlo.after hostOps3 (W9 m ρ c) (Proc.devRef .tc main_v3) = W9 m ρ c (Proc.devRef .tc main_v3) by keep_host hostOps3).trans (live9 m ρ c).src
  dst := (show StableHlo.after hostOps3 (W9 m ρ c) (Proc.devRef .tc main_v7) = W9 m ρ c (Proc.devRef .tc main_v7) by keep_host hostOps3).trans (live9 m ρ c).dst
  nrm := (show StableHlo.after hostOps3 (W9 m ρ c) (Proc.devRef .tc main_v35) = W9 m ρ c (Proc.devRef .tc main_v35) by keep_host hostOps3).trans (live9 m ρ c).nrm
  b4 := (show StableHlo.after hostOps3 (W9 m ρ c) (Proc.devRef .tc main_arg4) = W9 m ρ c (Proc.devRef .tc main_arg4) by keep_host hostOps3).trans (live9 m ρ c).b4
  w5 := (show StableHlo.after hostOps3 (W9 m ρ c) (Proc.devRef .tc main_arg5) = W9 m ρ c (Proc.devRef .tc main_arg5) by keep_host hostOps3).trans (live9 m ρ c).w5
  b6 := (show StableHlo.after hostOps3 (W9 m ρ c) (Proc.devRef .tc main_arg6) = W9 m ρ c (Proc.devRef .tc main_arg6) by keep_host hostOps3).trans (live9 m ρ c).b6
  w7 := (show StableHlo.after hostOps3 (W9 m ρ c) (Proc.devRef .tc main_arg7) = W9 m ρ c (Proc.devRef .tc main_arg7) by keep_host hostOps3).trans (live9 m ρ c).w7
  b8 := (show StableHlo.after hostOps3 (W9 m ρ c) (Proc.devRef .tc main_arg8) = W9 m ρ c (Proc.devRef .tc main_arg8) by keep_host hostOps3).trans (live9 m ρ c).b8
  w9 := (show StableHlo.after hostOps3 (W9 m ρ c) (Proc.devRef .tc main_arg9) = W9 m ρ c (Proc.devRef .tc main_arg9) by keep_host hostOps3).trans (live9 m ρ c).w9
  b10 := (show StableHlo.after hostOps3 (W9 m ρ c) (Proc.devRef .tc main_arg10) = W9 m ρ c (Proc.devRef .tc main_arg10) by keep_host hostOps3).trans (live9 m ρ c).b10

/-- Across region 3: none of these buffers is one of its output arrays. -/
theorem live11 : Live m c (W11 m ρ c) where
  src := (W11_of_ne m ρ c main_v3 (by decide)).trans (live10 m ρ c).src
  dst := (W11_of_ne m ρ c main_v7 (by decide)).trans (live10 m ρ c).dst
  nrm := (W11_of_ne m ρ c main_v35 (by decide)).trans (live10 m ρ c).nrm
  b4 := (W11_of_ne m ρ c main_arg4 (by decide)).trans (live10 m ρ c).b4
  w5 := (W11_of_ne m ρ c main_arg5 (by decide)).trans (live10 m ρ c).w5
  b6 := (W11_of_ne m ρ c main_arg6 (by decide)).trans (live10 m ρ c).b6
  w7 := (W11_of_ne m ρ c main_arg7 (by decide)).trans (live10 m ρ c).w7
  b8 := (W11_of_ne m ρ c main_arg8 (by decide)).trans (live10 m ρ c).b8
  w9 := (W11_of_ne m ρ c main_arg9 (by decide)).trans (live10 m ρ c).w9
  b10 := (W11_of_ne m ρ c main_arg10 (by decide)).trans (live10 m ρ c).b10

/-- Across region 4: none of these buffers is one of its output arrays. -/
theorem live12 : Live m c (W12 m ρ c) where
  src := (W12_of_ne m ρ c main_v3 (by decide)).trans (live11 m ρ c).src
  dst := (W12_of_ne m ρ c main_v7 (by decide)).trans (live11 m ρ c).dst
  nrm := (W12_of_ne m ρ c main_v35 (by decide)).trans (live11 m ρ c).nrm
  b4 := (W12_of_ne m ρ c main_arg4 (by decide)).trans (live11 m ρ c).b4
  w5 := (W12_of_ne m ρ c main_arg5 (by decide)).trans (live11 m ρ c).w5
  b6 := (W12_of_ne m ρ c main_arg6 (by decide)).trans (live11 m ρ c).b6
  w7 := ((W12_arr m ρ c 1).trans (((dat4 (V11 m ρ) c).arrAt_in 1 rfl _).trans (A_eq4 (V11 m ρ) c 1))).trans (live11 m ρ c).w7
  b8 := (W12_of_ne m ρ c main_arg8 (by decide)).trans (live11 m ρ c).b8
  w9 := (W12_of_ne m ρ c main_arg9 (by decide)).trans (live11 m ρ c).w9
  b10 := (W12_of_ne m ρ c main_arg10 (by decide)).trans (live11 m ρ c).b10

/-- Across the host stretch `hostOps5`: it writes none of these buffers. -/
theorem live13 : Live m c (W13 m ρ c) where
  src := (show StableHlo.after hostOps5 (W12 m ρ c) (Proc.devRef .tc main_v3) = W12 m ρ c (Proc.devRef .tc main_v3) by keep_host hostOps5).trans (live12 m ρ c).src
  dst := (show StableHlo.after hostOps5 (W12 m ρ c) (Proc.devRef .tc main_v7) = W12 m ρ c (Proc.devRef .tc main_v7) by keep_host hostOps5).trans (live12 m ρ c).dst
  nrm := (show StableHlo.after hostOps5 (W12 m ρ c) (Proc.devRef .tc main_v35) = W12 m ρ c (Proc.devRef .tc main_v35) by keep_host hostOps5).trans (live12 m ρ c).nrm
  b4 := (show StableHlo.after hostOps5 (W12 m ρ c) (Proc.devRef .tc main_arg4) = W12 m ρ c (Proc.devRef .tc main_arg4) by keep_host hostOps5).trans (live12 m ρ c).b4
  w5 := (show StableHlo.after hostOps5 (W12 m ρ c) (Proc.devRef .tc main_arg5) = W12 m ρ c (Proc.devRef .tc main_arg5) by keep_host hostOps5).trans (live12 m ρ c).w5
  b6 := (show StableHlo.after hostOps5 (W12 m ρ c) (Proc.devRef .tc main_arg6) = W12 m ρ c (Proc.devRef .tc main_arg6) by keep_host hostOps5).trans (live12 m ρ c).b6
  w7 := (show StableHlo.after hostOps5 (W12 m ρ c) (Proc.devRef .tc main_arg7) = W12 m ρ c (Proc.devRef .tc main_arg7) by keep_host hostOps5).trans (live12 m ρ c).w7
  b8 := (show StableHlo.after hostOps5 (W12 m ρ c) (Proc.devRef .tc main_arg8) = W12 m ρ c (Proc.devRef .tc main_arg8) by keep_host hostOps5).trans (live12 m ρ c).b8
  w9 := (show StableHlo.after hostOps5 (W12 m ρ c) (Proc.devRef .tc main_arg9) = W12 m ρ c (Proc.devRef .tc main_arg9) by keep_host hostOps5).trans (live12 m ρ c).w9
  b10 := (show StableHlo.after hostOps5 (W12 m ρ c) (Proc.devRef .tc main_arg10) = W12 m ρ c (Proc.devRef .tc main_arg10) by keep_host hostOps5).trans (live12 m ρ c).b10

/-- Across region 5: none of these buffers is one of its output arrays. -/
theorem live14 : Live m c (W14 m ρ c) where
  src := (W14_of_ne m ρ c main_v3 (by decide)).trans (live13 m ρ c).src
  dst := (W14_of_ne m ρ c main_v7 (by decide)).trans (live13 m ρ c).dst
  nrm := (W14_of_ne m ρ c main_v35 (by decide)).trans (live13 m ρ c).nrm
  b4 := (W14_of_ne m ρ c main_arg4 (by decide)).trans (live13 m ρ c).b4
  w5 := (W14_of_ne m ρ c main_arg5 (by decide)).trans (live13 m ρ c).w5
  b6 := (W14_of_ne m ρ c main_arg6 (by decide)).trans (live13 m ρ c).b6
  w7 := (W14_of_ne m ρ c main_arg7 (by decide)).trans (live13 m ρ c).w7
  b8 := (W14_of_ne m ρ c main_arg8 (by decide)).trans (live13 m ρ c).b8
  w9 := (W14_of_ne m ρ c main_arg9 (by decide)).trans (live13 m ρ c).w9
  b10 := (W14_of_ne m ρ c main_arg10 (by decide)).trans (live13 m ρ c).b10

/-- Across region 6: none of these buffers is one of its output arrays. -/
theorem live15 : Live m c (W15 m ρ c) where
  src := (W15_of_ne m ρ c main_v3 (by decide)).trans (live14 m ρ c).src
  dst := (W15_of_ne m ρ c main_v7 (by decide)).trans (live14 m ρ c).dst
  nrm := (W15_of_ne m ρ c main_v35 (by decide)).trans (live14 m ρ c).nrm
  b4 := (W15_of_ne m ρ c main_arg4 (by decide)).trans (live14 m ρ c).b4
  w5 := (W15_of_ne m ρ c main_arg5 (by decide)).trans (live14 m ρ c).w5
  b6 := (W15_of_ne m ρ c main_arg6 (by decide)).trans (live14 m ρ c).b6
  w7 := (W15_of_ne m ρ c main_arg7 (by decide)).trans (live14 m ρ c).w7
  b8 := (W15_of_ne m ρ c main_arg8 (by decide)).trans (live14 m ρ c).b8
  w9 := ((W15_arr m ρ c 1).trans (((dat6 (V14 m ρ) c).arrAt_in 1 rfl _).trans (A_eq6 (V14 m ρ) c 1))).trans (live14 m ρ c).w9
  b10 := (W15_of_ne m ρ c main_arg10 (by decide)).trans (live14 m ρ c).b10

end Cert.KernelIdeal.Carry

end
-- ==== Proof.Fold.lean ====
/-
  The fold through @main: what each region and each later host stretch leaves, as the reference's own stage
  functions of the arguments.

  Notation: a0 … a10 are the eleven argument arrays at launch. The reference program is the same host program with a
  dot_general where the kernel has a matmul region and add (+ maximum) where it has a bias region, and the generated
  read-back of the reference names every stage `val_main_vN` as a function of the arguments. Layer by layer:
    * a matmul region leaves the whole-array product of its input and its weight (the region modules), which is the
      reference's dot_general stage;
    * the stretch after it gathers the product's rows by source, scales them by the edge norm and adds them into their
      destinations, exactly the reference's operations, and reshapes the layer's bias to a row;
    * a bias region leaves the aggregated array plus the bias row, rectified in the hidden layers — the reference's
      add / maximum stage (the bias-layer lemmas).
  The lists, the norm and the layers' parameters are where the carrying module says they are. After the seventeenth
  segment the result buffer holds the reference's last stage, v106, of the arguments.
-/
import proofs.«155429_j83219286328194_1_alg».proof.Proof.Gen.KernelIdeal.Frame
import proofs.«155429_j83219286328194_1_alg».proof.Proof.Region0
import proofs.«155429_j83219286328194_1_alg».proof.Proof.Region1
import proofs.«155429_j83219286328194_1_alg».proof.Proof.Region2
import proofs.«155429_j83219286328194_1_alg».proof.Proof.Region3
import proofs.«155429_j83219286328194_1_alg».proof.Proof.Region4
import proofs.«155429_j83219286328194_1_alg».proof.Proof.Region5
import proofs.«155429_j83219286328194_1_alg».proof.Proof.Region6
import proofs.«155429_j83219286328194_1_alg».proof.Proof.Region7
import proofs.«155429_j83219286328194_1_alg».proof.Proof.BiasHost
import proofs.«155429_j83219286328194_1_alg».proof.Proof.Carry
import proofs.«155429_j83219286328194_1_alg».proof.Proof.Gen.ReferenceIdeal.Read
import Idealize.ShloMosaic.Lib.StableHlo.Run

noncomputable section

namespace Cert.KernelIdeal.Fold

open Idealize.ShloMosaic Idealize.ShloMosaic.TcCoe Idealize.ShloMosaic.StableHlo Idealize.SL Idealize.SL.Sem Cert.KernelIdeal Cert.KernelIdeal.Gen Cert.KernelIdeal.Carry Cert.ReferenceIdeal.Read

set_option maxRecDepth 16384
set_option maxHeartbeats 8000000

variable (m : (ℓ : Loc nD τ sig) → Buf (Elt Ideal) ℓ) (ρ : Dev nD → PrngReg) (c : Dev nD)

/-- Region 0: the product of what the preceding segments left. -/
theorem v36_6 : W6 m ρ c (Proc.devRef .tc main_v36) = val_main_v36 (F := Ideal) (a0 m c) (a3 m c) :=
  (W6_arr m ρ c 2).trans ((Region0.array (V5 m ρ) c).trans (by
    show Host.dotGeneral (F := Ideal) (φ₁ := .f32) (φ₂ := .f32) Cert.ReferenceIdeal.dot_S50000x16_S16x128_S50000x128_1_0_0_1_n_n none (W5 m ρ c (Proc.devRef .tc main_arg0)) (W5 m ρ c (Proc.devRef .tc main_arg3)) = _
    rw [arg0_5 m ρ c, arg3_5 m ρ c]
    rfl))

/-- The host stretch `hostOps1`: gather the product's rows by source, scale by the edge norm, add into the destinations. -/
theorem v49_7 : W7 m ρ c (Proc.devRef .tc main_v49) = val_main_v49 (F := Ideal) (a0 m c) (a1 m c) (a2 m c) (a3 m c) := by
  dsimp only [W7, hostOps1]
  after_results
  rw [v36_6 m ρ c, (live6 m ρ c).nrm, (live6 m ρ c).src, (live6 m ρ c).dst]
  rfl
/-- … and the bias vector reshaped to a row. -/
theorem v50_7 : W7 m ρ c (Proc.devRef .tc main_v50) = shapeCast S1x128 (a4 m c) Gen.shapeCasts_S128_S1x128 := by
  dsimp only [W7, hostOps1]
  after_results
  rw [(live6 m ρ c).b4]
  rfl

/-- Region 1: bias and rectifier. -/
theorem v51_8 : W8 m ρ c (Proc.devRef .tc main_v51) = val_main_v53 (F := Ideal) (a0 m c) (a1 m c) (a2 m c) (a3 m c) (a4 m c) :=
  (W8_arr m ρ c 2).trans ((Region1.array (V7 m ρ) c).trans
    ((congrArg₂ Region1.biasedOf (v49_7 m ρ c) (v50_7 m ρ c)).trans ((BiasHost.layer1 _ _).trans rfl)))

/-- Region 2: the product of what the preceding segments left. -/
theorem v52_9 : W9 m ρ c (Proc.devRef .tc main_v52) = val_main_v54 (F := Ideal) (a0 m c) (a1 m c) (a2 m c) (a3 m c) (a4 m c) (a5 m c) :=
  (W9_arr m ρ c 2).trans ((Region2.array (V8 m ρ) c).trans (by
    show Host.dotGeneral (F := Ideal) (φ₁ := .f32) (φ₂ := .f32) Cert.ReferenceIdeal.dot_S50000x128_S128x128_S50000x128_1_0_0_1_n_n none (W8 m ρ c (Proc.devRef .tc main_v51)) (W8 m ρ c (Proc.devRef .tc main_arg5)) = _
    rw [v51_8 m ρ c, (live8 m ρ c).w5]
    rfl))

/-- The host stretch `hostOps3`: gather the product's rows by source, scale by the edge norm, add into the destinations. -/
theorem v65_10 : W10 m ρ c (Proc.devRef .tc main_v65) = val_main_v67 (F := Ideal) (a0 m c) (a1 m c) (a2 m c) (a3 m c) (a4 m c) (a5 m c) := by
  dsimp only [W10, hostOps3]
  after_results
  rw [v52_9 m ρ c, (live9 m ρ c).nrm, (live9 m ρ c).src, (live9 m ρ c).dst]
  rfl
/-- … and the bias vector reshaped to a row. -/
theorem v66_10 : W10 m ρ c (Proc.devRef .tc main_v66) = shapeCast S1x128 (a6 m c) Gen.shapeCasts_S128_S1x128 := by
  dsimp only [W10, hostOps3]
  after_results
  rw [(live9 m ρ c).b6]
  rfl

/-- Region 3: bias and rectifier. -/
theorem v67_11 : W11 m ρ c (Proc.devRef .tc main_v67) = val_main_v71 (F := Ideal) (a0 m c) (a1 m c) (a2 m c) (a3 m c) (a4 m c) (a5 m c) (a6 m c) :=
  (W11_arr m ρ c 2).trans ((Region3.array (V10 m ρ) c).trans
    ((congrArg₂ Region3.biasedOf (v65_10 m ρ c) (v66_10 m ρ c)).trans ((BiasHost.layer2 _ _).trans rfl)))

/-- Region 4: the product of what the preceding segments left. -/
theorem v68_12 : W12 m ρ c (Proc.devRef .tc main_v68) = val_main_v72 (F := Ideal) (a0 m c) (a1 m c) (a2 m c) (a3 m c) (a4 m c) (a5 m c) (a6 m c) (a7 m c) :=
  (W12_arr m ρ c 2).trans ((Region4.array (V11 m ρ) c).trans (by
    show Host.dotGeneral (F := Ideal) (φ₁ := .f32) (φ₂ := .f32) Cert.ReferenceIdeal.dot_S50000x128_S128x128_S50000x128_1_0_0_1_n_n none (W11 m ρ c (Proc.devRef .tc main_v67)) (W11 m ρ c (Proc.devRef .tc main_arg7)) = _
    rw [v67_11 m ρ c, (live11 m ρ c).w7]
    rfl))

/-- The host stretch `hostOps5`: gather the product's rows by source, scale by the edge norm, add into the destinations. -/
theorem v81_13 : W13 m ρ c (Proc.devRef .tc main_v81) = val_main_v85 (F := Ideal) (a0 m c) (a1 m c) (a2 m c) (a3 m c) (a4 m c) (a5 m c) (a6 m c) (a7 m c) := by
  dsimp only [W13, hostOps5]
  after_results
  rw [v68_12 m ρ c, (live12 m ρ c).nrm, (live12 m ρ c).src, (live12 m ρ c).dst]
  rfl
/-- … and the bias vector reshaped to a row. -/
theorem v82_13 : W13 m ρ c (Proc.devRef .tc main_v82) = shapeCast S1x128 (a8 m c) Gen.shapeCasts_S128_S1x128 := by
  dsimp only [W13, hostOps5]
  after_results
  rw [(live12 m ρ c).b8]
  rfl

/-- Region 5: bias and rectifier. -/
theorem v83_14 : W14 m ρ c (Proc.devRef .tc main_v83) = val_main_v89 (F := Ideal) (a0 m c) (a1 m c) (a2 m c) (a3 m c) (a4 m c) (a5 m c) (a6 m c) (a7 m c) (a8 m c) :=
  (W14_arr m ρ c 2).trans ((Region5.array (V13 m ρ) c).trans
    ((congrArg₂ Region5.biasedOf (v81_13 m ρ c) (v82_13 m ρ c)).trans ((BiasHost.layer3 _ _).trans rfl)))

/-- Region 6: the product of what the preceding segments left. -/
theorem v84_15 : W15 m ρ c (Proc.devRef .tc main_v84) = val_main_v90 (F := Ideal) (a0 m c) (a1 m c) (a2 m c) (a3 m c) (a4 m c) (a5 m c) (a6 m c) (a7 m c) (a8 m c) (a9 m c) :=
  (W15_arr m ρ c 2).trans ((Region6.array (V14 m ρ) c).trans (by
    show Host.dotGeneral (F := Ideal) (φ₁ := .f32) (φ₂ := .f32) Cert.ReferenceIdeal.dot_S50000x128_S128x16_S50000x16_1_0_0_1_n_n none (W14 m ρ c (Proc.devRef .tc main_v83)) (W14 m ρ c (Proc.devRef .tc main_arg9)) = _
    rw [v83_14 m ρ c, (live14 m ρ c).w9]
    rfl))

/-- The host stretch `hostOps7`: gather the product's rows by source, scale by the edge norm, add into the destinations. -/
theorem v97_16 : W16 m ρ c (Proc.devRef .tc main_v97) = val_main_v103 (F := Ideal) (a0 m c) (a1 m c) (a2 m c) (a3 m c) (a4 m c) (a5 m c) (a6 m c) (a7 m c) (a8 m c) (a9 m c) := by
  dsimp only [W16, hostOps7]
  after_results
  rw [v84_15 m ρ c, (live15 m ρ c).nrm, (live15 m ρ c).src, (live15 m ρ c).dst]
  rfl
/-- … and the bias vector reshaped to a row. -/
theorem v98_16 : W16 m ρ c (Proc.devRef .tc main_v98) = shapeCast S1x16 (a10 m c) Gen.shapeCasts_S16_S1x16 := by
  dsimp only [W16, hostOps7]
  after_results
  rw [(live15 m ρ c).b10]
  rfl

/-- Region 7: bias. -/
theorem v99_17 : W17 m ρ c (Proc.devRef .tc main_v99) = val_main_v106 (F := Ideal) (a0 m c) (a1 m c) (a2 m c) (a3 m c) (a4 m c) (a5 m c) (a6 m c) (a7 m c) (a8 m c) (a9 m c) (a10 m c) :=
  (W17_arr m ρ c 2).trans ((Region7.array (V16 m ρ) c).trans
    ((congrArg₂ Region7.biasedOf (v97_16 m ρ c) (v98_16 m ρ c)).trans ((BiasHost.layer4 _ _).trans rfl)))

end Cert.KernelIdeal.Fold

end
-- ==== Proof.lean ====
/-
  The proof of `Cert.Claim`: a four-layer graph convolution whose dense projections and bias / rectifier steps are
  Pallas kernels, against the plain jnp reference.

  Both programs build the same self-looped edge lists and the same symmetric edge norm, and in each layer gather the
  projected rows by source, scale them by the norm and add them into their destinations — the same host operations
  on both sides. They differ in two places per layer:
    * the projection X · W: the reference's dot_general of the whole arrays, against a kernel that multiplies ten
      bands of 5000 rows by the weight on the MXU after casting both operands to bf16. On extended reals the cast is
      the identity and either product at (r, c) is the sum over k of X (r, k) · W (k, c); the bands tile the rows.
    * the bias and rectifier: the reference's add of the broadcast bias and maximum with zero, against a kernel that
      adds the bias row to each band and takes the maximum with zero (the last layer has no rectifier on either
      side). Both read the bias at the entry's column.
  No law beyond reading the same sum and the same entries is used, so the finiteness precondition is never opened.

  The three frames: the two kernel programs' are the generated frame certificates; the reference's is its generated
  run with the result dropped. `preserves` has no conjunct (the idealization rewrote nothing). `algebraic`: the
  kernel's run ends with the result buffer at the last segment boundary's contents (Proof/KernelRun.lean), which the
  fold through the seventeen segments identifies with the reference's last stage of the arguments
  (Proof/Fold.lean); the reference's run ends at that same stage of its own arguments, which agree.
-/
import proofs.«155429_j83219286328194_1_alg».proof.Defs
import proofs.«155429_j83219286328194_1_alg».proof.Proof.Gen.Kernel
import proofs.«155429_j83219286328194_1_alg».proof.Proof.Gen.Kernel.Frame
import proofs.«155429_j83219286328194_1_alg».proof.Proof.Gen.KernelIdeal
import proofs.«155429_j83219286328194_1_alg».proof.Proof.Gen.KernelIdeal.Frame
import proofs.«155429_j83219286328194_1_alg».proof.Proof.Gen.ReferenceIdeal
import proofs.«155429_j83219286328194_1_alg».proof.Proof.Gen.ReferenceIdeal.Run
import proofs.«155429_j83219286328194_1_alg».proof.Proof.Gen.ReferenceIdeal.Read
import proofs.«155429_j83219286328194_1_alg».proof.Proof.Gen.Pre_finite_inputs
import proofs.«155429_j83219286328194_1_alg».proof.Proof.KernelRun
import proofs.«155429_j83219286328194_1_alg».proof.Proof.Fold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the reference's last stage of the arguments in
    their result buffers. -/
theorem algebraic : Cert.algebraic_KernelIdeal_ReferenceIdeal := by
  intro m ρ m' ρ' _ hagree
  refine ⟨fun c => Cert.KernelIdeal.Gen.W17 m ρ c (Proc.devRef .tc Cert.KernelIdeal.main_v99),
    Cert.KernelIdeal.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v106_eq, h0, h1, h2, h3, h4, h5, h6, h7, h8, h9, h10]
  exact (Cert.KernelIdeal.Fold.v99_17 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
